-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64x64 : Shape := ⟨3, ![16384, 64, 64]⟩
abbrev S_ : Shape := ⟨0, ![]⟩

class Facts : Prop where
  bcast_S_S16384x64x64 : S_.BroadcastsInDim S16384x64x64 (![] : Fin 0 → Fin S16384x64x64.rank)
  reducesTo_S16384x64x64_S_d0_1_2 : S16384x64x64.ReducesTo [0, 1, 2] S_
  h_S_ : 0 < S_.numel

variable [Facts]

def fn {F : FTy → Type} [FloatOps F] (main_arg0 : FVec F S16384x64x64 .f32) : IVec S_ 1 :=
  let main_v0 : FVec F S16384x64x64 .f32 := Host.absf main_arg0
  let main_cst : FVec F S_ .f32 := constant S_ .f32 0x7F800000#32
  let main_v1 : FVec F S16384x64x64 .f32 := broadcastInDim S16384x64x64 ![] bcast_S_S16384x64x64 main_cst
  let main_v2 : IVec S16384x64x64 1 := cmpf .olt main_v0 main_v1
  let main_c : IVec S_ 1 := constantI S_ 1 1#1
  let main_v3 : IVec S_ 1 := (fun x v => Host.reduce IntOp.andi x v reducesTo_S16384x64x64_S_d0_1_2 h_S_) main_v2 main_c
  main_v3
-- ==== Kernel.lean ====
abbrev S16384x64x64 : Shape := ⟨3, ![16384, 64, 64]⟩
abbrev S16384x64 : Shape := ⟨2, ![16384, 64]⟩
abbrev S256x64x64 : Shape := ⟨3, ![256, 64, 64]⟩
abbrev S256x64 : Shape := ⟨2, ![256, 64]⟩
abbrev S256 : Shape := ⟨1, ![256]⟩
abbrev S256x1 : Shape := ⟨2, ![256, 1]⟩
abbrev S256x1x64 : Shape := ⟨3, ![256, 1, 64]⟩
abbrev S256x64x1 : Shape := ⟨3, ![256, 64, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x64x64, .f32⟩
  | .hbm, ⟨1, _⟩ => ⟨S16384x64, .f32⟩
  | .local _ .vmem, ⟨0, _⟩ => ⟨S256x64x64, .f32⟩
  | .local _ .vmem, ⟨1, _⟩ => ⟨S256x64x64, .f32⟩
  | .local _ .vmem, ⟨2, _⟩ => ⟨S256x64, .f32⟩
  | .local _ .vmem, ⟨3, _⟩ => ⟨S256x64, .f32⟩
  | _, _ => ⟨S16384x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x64_S256x64x64_0_0_0 : ∀ a, (![0, 0, 0] : Fin 3 → Nat) a + S256x64x64.size a ≤ S256x64x64.size a
  h_S256x64x64 : 0 < S256x64x64.numel
  reduces_S256x64x64_S256x64 : S256x64x64.Reduces [1] S256x64
  reduces_S256x64_S256 : S256x64.Reduces [1] S256
  shapeCasts_S256_S256x1 : S256.ShapeCasts S256x1
  broadcasts_S256x1_S256x64 : S256x1.Broadcasts S256x64
  shapeCasts_S256x64_S256x1x64 : S256x64.ShapeCasts S256x1x64
  broadcasts_S256x1x64_S256x64x64 : S256x1x64.Broadcasts S256x64x64
  reduces_S256x64x64_S256x64_2 : S256x64x64.Reduces [2] S256x64
  shapeCasts_S256x64_S256x64x1 : S256x64.ShapeCasts S256x64x1
  broadcasts_S256x64x1_S256x64x64 : S256x64x1.Broadcasts S256x64x64
  inb_S256x64_S256x64_0_0 : ∀ a, (![0, 0] : Fin 2 → Nat) a + S256x64.size a ≤ S256x64.size a
  h_S256x64 : 0 < S256x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x64.size a ≤ S16384x64x64.size a
  hwx0_0 : ∀ i : grid0.Coords, EltTy.bits .f32 = 32 ∨ (Rect.block (s := S16384x64x64) S256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .f32 = 32 ∨ (Rect.block (s := S16384x64) S256x64.size (cc0_transform_1 i) (hinb0_1 i)).WholeWords (EltTy.packing .f32)

variable [Facts₀]

abbrev win0_0 : Pipeline.Window sig grid0 :=
  Pipeline.Window.ofSpec (Memref.whole main_arg0) S256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x64x64 : Shape := ⟨3, ![16384, 64, 64]⟩
abbrev S_ : Shape := ⟨0, ![]⟩
abbrev S16384x64x1 : Shape := ⟨3, ![16384, 64, 1]⟩
abbrev S16384x1 : Shape := ⟨2, ![16384, 1]⟩
abbrev S16384x1x1 : Shape := ⟨3, ![16384, 1, 1]⟩
abbrev S16384x64 : Shape := ⟨2, ![16384, 64]⟩
abbrev S16384 : Shape := ⟨1, ![16384]⟩
abbrev S16384x1x64 : Shape := ⟨3, ![16384, 1, 64]⟩

abbrev nBuf : Space → Nat
  | .hbm => 122
  | .vmem => 0
  | .smem => 0
  | _ => 0

abbrev bufTy : (tb : Table) → Fin (tcTables nBuf tb) → BufTy
  | .hbm, ⟨0, _⟩ => ⟨S16384x64x64, .f32⟩
  | .hbm, ⟨1, _⟩ => ⟨S_, .f32⟩
  | .hbm, ⟨2, _⟩ => ⟨S16384x64x1, .f32⟩
  | .hbm, ⟨3, _⟩ => ⟨S_, .f32⟩
  | .hbm, ⟨4, _⟩ => ⟨S16384x1, .f32⟩
  | .hbm, ⟨5, _⟩ => ⟨S_, .f32⟩
  | .hbm, ⟨6, _⟩ => ⟨S16384x1, .f32⟩
  | .hbm, ⟨7, _⟩ => ⟨S16384x1, .f32⟩
  | .hbm, ⟨8, _⟩ => ⟨S16384x1x1, .f32⟩
  | .hbm, ⟨9, _⟩ => ⟨S16384x64x1, .f32⟩
  | .hbm, ⟨10, _⟩ => ⟨S16384x64x1, .f32⟩
  | .hbm, ⟨11, _⟩ => ⟨S16384x64x1, .f32⟩
  | .hbm, ⟨12, _⟩ => ⟨S_, .f32⟩
  | .hbm, ⟨13, _⟩ => ⟨S16384x1, .f32⟩
  | .hbm, ⟨14, _⟩ => ⟨S16384x1x1, .f32⟩
  | .hbm, ⟨15, _⟩ => ⟨S16384x64x1, .f32⟩
  | .hbm, ⟨16, _⟩ => ⟨S16384x64x1, .f32⟩
  | .hbm, ⟨17, _⟩ => ⟨S16384x64x64, .f32⟩
  | .hbm, ⟨18, _⟩ => ⟨S16384x64x64, .f32⟩
  | .hbm, ⟨19, _⟩ => ⟨S_, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x64, .f32⟩
  | .hbm, ⟨37, _⟩ => ⟨S16384x64, .f32⟩
  | .hbm, ⟨38, _⟩ => ⟨S16384x1x64, .f32⟩
  | .hbm, ⟨39, _⟩ => ⟨S16384x64x64, .f32⟩
  | .hbm, ⟨40, _⟩ => ⟨S16384x64x64, .f32⟩
  | .hbm, ⟨41, _⟩ => ⟨S_, .f32⟩
  | .hbm, ⟨42, _⟩ => ⟨S16384x64, .f32⟩
  | .hbm, ⟨43, _⟩ => ⟨S16384x64x1, .f32⟩
  | .hbm, ⟨44, _⟩ => ⟨S16384x64x1, .f32⟩
  | .hbm, ⟨45, _⟩ => ⟨S_, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1x1, .f32⟩
  | .hbm, ⟨51, _⟩ => ⟨S16384x64x1, .f32⟩
  | .hbm, ⟨52, _⟩ => ⟨S16384x64x1, .f32⟩
  | .hbm, ⟨53, _⟩ => ⟨S16384x64x1, .f32⟩
  | .hbm, ⟨54, _⟩ => ⟨S_, .f32⟩
  | .hbm, ⟨55, _⟩ => ⟨S16384x1, .f32⟩
  | .hbm, ⟨56, _⟩ => ⟨S16384x1x1, .f32⟩
  | .hbm, ⟨57, _⟩ => ⟨S16384x64x1, .f32⟩
  | .hbm, ⟨58, _⟩ => ⟨S16384x64x1, .f32⟩
  | .hbm, ⟨59, _⟩ => ⟨S16384x64x64, .f32⟩
  | .hbm, ⟨60, _⟩ => ⟨S16384x64x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x64, .f32⟩
  | .hbm, ⟨79, _⟩ => ⟨S16384x64, .f32⟩
  | .hbm, ⟨80, _⟩ => ⟨S16384x1x64, .f32⟩
  | .hbm, ⟨81, _⟩ => ⟨S16384x64x64, .f32⟩
  | .hbm, ⟨82, _⟩ => ⟨S16384x64x64, .f32⟩
  | .hbm, ⟨83, _⟩ => ⟨S_, .f32⟩
  | .hbm, ⟨84, _⟩ => ⟨S16384x64, .f32⟩
  | .hbm, ⟨85, _⟩ => ⟨S16384x64x1, .f32⟩
  | .hbm, ⟨86, _⟩ => ⟨S16384x64x1, .f32⟩
  | .hbm, ⟨87, _⟩ => ⟨S_, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1x1, .f32⟩
  | .hbm, ⟨93, _⟩ => ⟨S16384x64x1, .f32⟩
  | .hbm, ⟨94, _⟩ => ⟨S16384x64x1, .f32⟩
  | .hbm, ⟨95, _⟩ => ⟨S16384x64x1, .f32⟩
  | .hbm, ⟨96, _⟩ => ⟨S_, .f32⟩
  | .hbm, ⟨97, _⟩ => ⟨S16384x1, .f32⟩
  | .hbm, ⟨98, _⟩ => ⟨S16384x1x1, .f32⟩
  | .hbm, ⟨99, _⟩ => ⟨S16384x64x1, .f32⟩
  | .hbm, ⟨100, _⟩ => ⟨S16384x64x1, .f32⟩
  | .hbm, ⟨101, _⟩ => ⟨S16384x64x64, .f32⟩
  | .hbm, ⟨102, _⟩ => ⟨S16384x64x64, .f32⟩
  | .hbm, ⟨103, _⟩ => ⟨S_, .f32⟩
  | .hbm, ⟨104, _⟩ => ⟨S16384x64, .f32⟩
  | .hbm, ⟨105, _⟩ => ⟨S16384x64, .f32⟩
  | .hbm, ⟨106, _⟩ => ⟨S_, .f32⟩
  | .hbm, ⟨107, _⟩ => ⟨S16384, .f32⟩
  | .hbm, ⟨108, _⟩ => ⟨S16384x1, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S16384x1, .f32⟩
  | .hbm, ⟨118, _⟩ => ⟨S16384x1, .f32⟩
  | .hbm, ⟨119, _⟩ => ⟨S16384x1, .f32⟩
  | .hbm, ⟨120, _⟩ => ⟨S16384x64, .f32⟩
  | .hbm, ⟨121, _⟩ => ⟨S16384x64, .f32⟩
  | _, _ => ⟨S16384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_call1_v0 : Ref sig .tc := ⟨.hbm, 63, rfl⟩
abbrev main_call1_cst : Ref sig .tc := ⟨.hbm, 64, rfl⟩
abbrev main_call1_v1 : Ref sig .tc := ⟨.hbm, 65, rfl⟩
abbrev main_call1_v2 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_call2_v0 : Ref sig .tc := ⟨.hbm, 105, rfl⟩
abbrev main_call2_cst : Ref sig .tc := ⟨.hbm, 106, rfl⟩
abbrev main_call2_v1 : Ref sig .tc := ⟨.hbm, 107, rfl⟩
abbrev main_call2_v2 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  bcast_S_S16384x64x1 : S_.BroadcastsInDim S16384x64x1 (![] : Fin 0 → Fin S16384x64x1.rank)
  reducesTo_S16384x64x1_S16384x1_d1 : S16384x64x1.ReducesTo [1] S16384x1
  h_S_ : 0 < S_.numel
  bcast_S_S16384x1 : S_.BroadcastsInDim S16384x1 (![] : Fin 0 → Fin S16384x1.rank)
  bcast_S16384x1_S16384x1x1_0_2 : S16384x1.BroadcastsInDim S16384x1x1 (![0, 2] : Fin 2 → Fin S16384x1x1.rank)
  bcast_S16384x1x1_S16384x64x1_0_1_2 : S16384x1x1.BroadcastsInDim S16384x64x1 (![0, 1, 2] : Fin 3 → Fin S16384x64x1.rank)
  bcast_S16384x64x1_S16384x64x64_0_1_2 : S16384x64x1.BroadcastsInDim S16384x64x64 (![0, 1, 2] : Fin 3 → Fin S16384x64x64.rank)
  reducesTo_S16384x64x64_S16384x64_d1 : S16384x64x64.ReducesTo [1] S16384x64
  reducesTo_S16384x64_S16384_d1 : S16384x64.ReducesTo [1] S16384
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S16384x64_S16384x1x64_0_2 : S16384x64.BroadcastsInDim S16384x1x64 (![0, 2] : Fin 2 → Fin S16384x1x64.rank)
  bcast_S16384x1x64_S16384x64x64_0_1_2 : S16384x1x64.BroadcastsInDim S16384x64x64 (![0, 1, 2] : Fin 3 → Fin S16384x64x64.rank)
  reducesTo_S16384x64x64_S16384x64_d2 : S16384x64x64.ReducesTo [2] S16384x64
  bcast_S16384x64_S16384x64x1_0_1 : S16384x64.BroadcastsInDim S16384x64x1 (![0, 1] : Fin 2 → Fin S16384x64x1.rank)

variable [Facts₀]

class Facts : Prop extends Facts₀ where

variable [Facts]
-- ==== Proof.Spec.lean ====
/-
  Dynamic routing between capsules, for one batch row, on the extended reals.

  A row is a table X of N = 64 input capsules, each a vector of D = 64 coordinates.  Routing keeps one logit b n per
  input capsule and repeats three times:

      c = softmax b                 (over the input capsules)
      s = Σ_n c n · X n             (the coupling-weighted mean of the capsules)
      v = squash s                  (s scaled by |s|² / (1 + |s|²) / (|s| + ε))
      b ← b + ⟨X n, v⟩              (agreement of each capsule with the output; not after the last round)

  and returns the last v.  The logits start at zero, where the softmax is the constant 1/64, so the first weighted
  mean is the plain sum of the capsules times 1/64: `route` is written in that form.  The two facts that let a
  program written the other way round meet it are proved here:

    * `sqrt_mul_self_sqnorm`: the norm |s| = √(Σ s_d²), squared again, is Σ s_d² — on every extended real, because a
      sum of squares is never negative;
    * `mix_soft_zero`: with all logits zero the weighted mean is (Σ_n X n d) · 1/64 — a non-negative finite factor
      distributes over every sum of extended reals.
-/
import Idealize.ShloMosaic.PureOps.Ideal
import Idealize.ShloMosaic.PureOps.Ideal.Laws
import Idealize.ShloMosaic.Lib.ValueIdx

noncomputable section

open scoped BigOperators

namespace Cert.Routing

open Idealize.ShloMosaic

/-- The float literals of both programs, as the extended reals they denote. -/
def one : EReal := Ideal.ofBits .f32 0x3F800000#32
def tiny : EReal := Ideal.ofBits .f32 0x322BCC77#32
def ninf : EReal := Ideal.ofBits .f32 0xFF800000#32
def inv64 : EReal := Ideal.ofBits .f32 0x3C800000#32

/-- |s|², the sum of the squared coordinates. -/
def sqnorm (s : Fin 64 → EReal) : EReal := ∑ d, s d * s d

/-- The squashing non-linearity: s · |s|² / (1 + |s|²) / (|s| + ε). -/
def squash (s : Fin 64 → EReal) : Fin 64 → EReal := fun d =>
  Ideal.div (Ideal.div (sqnorm s) (one + sqnorm s)) (Ideal.sqrt (sqnorm s) + tiny) * s d

/-- The agreement of each input capsule with an output vector: ⟨X n, v⟩. -/
def agree (X : Fin 64 → Fin 64 → EReal) (v : Fin 64 → EReal) : Fin 64 → EReal := fun n => ∑ d, X n d * v d

/-- The largest logit (the softmax's shift), computed from −∞. -/
def top (b : Fin 64 → EReal) : EReal := max ninf ((Finset.univ : Finset (Fin 64)).fold max ninf b)

/-- The softmax of the logits. -/
def soft (b : Fin 64 → EReal) : Fin 64 → EReal := fun n =>
  Ideal.div (Ideal.exp (b n - top b)) (∑ k, Ideal.exp (b k - top b))

/-- The capsules mixed with coupling coefficients c: Σ_n c n · X n d. -/
def mix (X : Fin 64 → Fin 64 → EReal) (c : Fin 64 → EReal) : Fin 64 → EReal := fun d => ∑ n, c n * X n d

/-- Three rounds of routing on one row. -/
def route (X : Fin 64 → Fin 64 → EReal) : Fin 64 → EReal :=
  let v0 := squash fun d => (∑ n, X n d) * inv64
  let b1 := agree X v0
  let v1 := squash (mix X (soft b1))
  let b2 : Fin 64 → EReal := fun n => b1 n + agree X v1 n
  squash (mix X (soft b2))

/-- The whole result: row r of the [16384, 64] output is the routing of row r of the [16384, 64, 64] input. -/
def G (x : (⟨3, ![16384, 64, 64]⟩ : Shape).Idx → EReal) : (⟨2, ![16384, 64]⟩ : Shape).Idx → EReal := fun i =>
  route (fun n d => x (ValueIdx.ix3 (⟨(i 0).val, (i 0).isLt⟩ : Fin 16384) n d)) ⟨(i 1).val, (i 1).isLt⟩

theorem G_apply (x : (⟨3, ![16384, 64, 64]⟩ : Shape).Idx → EReal) (r : Fin 16384) (d : Fin 64) :
    G x (ValueIdx.ix2 r d) = route (fun n k => x (ValueIdx.ix3 r n k)) d := rfl

/-! ## A sum of squares and its root -/

theorem mul_self_nonneg' (x : EReal) : 0 ≤ x * x := by
  induction x using EReal.rec with
  | bot => simp
  | top => simp
  | coe r => rw [← EReal.coe_mul]; exact EReal.coe_nonneg.mpr (mul_self_nonneg r)

theorem sqnorm_nonneg (s : Fin 64 → EReal) : 0 ≤ sqnorm s :=
  Finset.sum_nonneg fun d _ => mul_self_nonneg' (s d)

theorem sqrt_mul_self_of_nonneg {q : EReal} (h : 0 ≤ q) : Ideal.sqrt q * Ideal.sqrt q = q := by
  induction q using EReal.rec with
  | bot => exact absurd h (by simp)
  | top => simp
  | coe r =>
    have hr : 0 ≤ r := EReal.coe_nonneg.mp h
    rw [Ideal.sqrt_coe, if_neg (not_lt.mpr hr), ← EReal.coe_mul, Real.mul_self_sqrt hr]

theorem sqrt_mul_self_sqnorm (s : Fin 64 → EReal) :
    Ideal.sqrt (sqnorm s) * Ideal.sqrt (sqnorm s) = sqnorm s :=
  sqrt_mul_self_of_nonneg (sqnorm_nonneg s)

/-! ## The first round: all logits zero -/

theorem ninf_eq : ninf = ⊥ := by simp [ninf, Ideal.ofBits, Ideal.ieee]

theorem inv64_eq : inv64 = ((1 / 64 : ℝ) : EReal) := by
  simp [inv64, Ideal.ofBits, Ideal.ieee]
  rw [← EReal.coe_mul]; exact congrArg _ (by norm_num)

theorem top_zero : top (fun _ => 0) = 0 := by
  have h : (Finset.univ : Finset (Fin 64)).fold max ninf (fun _ => (0 : EReal)) = 0 := by
    apply le_antisymm
    · rw [Finset.fold_max_le]; exact ⟨by rw [ninf_eq]; exact bot_le, fun _ _ => le_rfl⟩
    · rw [Finset.le_fold_max]; exact Or.inr ⟨0, Finset.mem_univ _, le_rfl⟩
  unfold top
  rw [h, ninf_eq]; exact max_eq_right bot_le

theorem soft_zero (n : Fin 64) : soft (fun _ => 0) n = ((1 / 64 : ℝ) : EReal) := by
  unfold soft
  rw [top_zero]
  have e : Ideal.exp ((0 : EReal) - 0) = 1 := by
    rw [sub_zero, ← EReal.coe_zero, Ideal.exp_coe, Real.exp_zero, EReal.coe_one]
  simp only [e]
  rw [Finset.sum_const, Finset.card_univ, Fintype.card_fin, EReal.nsmul_eq_mul, mul_one]
  have h64 : ((64 : ℕ) : EReal) = ((64 : ℝ) : EReal) := by norm_cast
  rw [h64, Ideal.div_coe (by norm_num : (64 : ℝ) ≠ 0), one_mul]

/-- A non-negative real factor distributes over a finite sum of extended reals. -/
theorem coe_mul_sum {ι : Type} (s : Finset ι) {c : ℝ} (hc : 0 ≤ c) (f : ι → EReal) :
    ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

theorem mix_soft_zero (X : Fin 64 → Fin 64 → EReal) (d : Fin 64) :
    mix X (soft fun _ => 0) d = (∑ n, X n d) * inv64 := by
  unfold mix
  simp only [soft_zero]
  rw [coe_mul_sum _ (by norm_num : (0 : ℝ) ≤ 1 / 64), inv64_eq, mul_comm]

end Cert.Routing

end
-- ==== Proof.LibRowOps.lean ====
/-
  Row-wise layout operations of a two-axis array, read at an entry; generic in the number of rows, so that one statement
  serves every tiling of a row-wise computation.

    * a column [a, 1] broadcast across b columns reads, at (p, c), the column's entry at row p;
    * a single entry [1, 1] broadcast down a rows reads that entry;
    * a vector [a] recast as a column [a, 1] reads, at (p, 0), the vector's entry p;
    * the sum of an [a, b] array along its second axis reads, at p, the sum over the b entries of row p.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type}

/-- A column broadcast across the columns. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast down the rows. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

/-- A vector recast as a column. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- The sum along the second axis, at row `p`, over the extended reals. -/
theorem lane_sum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  rw [Ideal.multiReduction_add_single]
  refine Finset.sum_congr rfl fun k _ => congrArg src ?_
  funext c
  apply Fin.ext
  match c with
  | ⟨0, _⟩ => rfl
  | ⟨1, _⟩ => rfl

end Idealize.ShloMosaic.RowOps

end
-- ==== Proof.LibOuterLayout.lean ====
/-
  The layout operations of an outer product over three axes, each read at an entry; generic in the three extents.

  An array [a, b, c] whose entry (p, q, r) combines a value per q, a value per (p, r) and a value per p is built by
  giving each operand unit axes where it does not vary and broadcasting it to [a, b, c]:

    * a [1, b, 1] array broadcast to [a, b, c] reads, at (p, q, r), the operand at (0, q, 0);
    * an [a, 1, c] array broadcast to [a, b, c] reads, at (p, q, r), the operand at (p, 0, r);
    * an [a, 1, 1] array broadcast to [a, b, c] reads, at (p, q, r), the operand at (p, 0, 0);
    * an [a, c] array recast as [a, 1, c] reads, at (p, 0, r), the operand at (p, r);
    * a vector [a] recast as [a, 1, 1] reads, at (p, 0, 0), the vector's entry p.
-/
import Idealize.ShloMosaic.Lib.ValueIdx
import Idealize.ShloMosaic.Lib.Pipeline.Value

noncomputable section

namespace Idealize.ShloMosaic.OuterLayout

open Idealize.ShloMosaic Idealize.ShloMosaic.ValueIdx

variable {α : Type}

/-- A value per middle coordinate, broadcast over the outer and the inner axis. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- A value per outer and inner coordinate, broadcast over the middle axis. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A value per outer coordinate, broadcast over the middle and the inner axis. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A two-axis array given a unit middle axis. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h (ix3 p u r) (ix2 p r) (by
    have hu : u.val = 0 := by omega
    rw [Shape.rowMajor_val_two, Shape.rowMajor_val_three]
    show p.val * c + r.val = (p.val * 1 + u.val) * c + r.val
    rw [hu, Nat.mul_one, Nat.add_zero])

/-- A vector given two trailing unit axes. -/
theorem shapeCast_a_a11_apply {a : ℕ} (x : (⟨1, ![a]⟩ : Shape).Idx → α)
    (h : (⟨1, ![a]⟩ : Shape).ShapeCasts ⟨3, ![a, 1, 1]⟩) (p : Fin a) (u v : Fin 1) :
    shapeCast ⟨3, ![a, 1, 1]⟩ x h (ix3 p u v) = x (ix1 p) :=
  shapeCast_apply x h (ix3 p u v) (ix1 p) (by
    have hu : u.val = 0 := by omega
    have hv : v.val = 0 := by omega
    rw [Shape.rowMajor_val_one, Shape.rowMajor_val_three]
    show p.val = (p.val * 1 + u.val) * 1 + v.val
    omega)

end Idealize.ShloMosaic.OuterLayout

end
-- ==== Proof.LibCapsLayout.lean ====
/-
  Layout operations and one-axis reductions of a three-axis array [a, b, c], read at an entry; generic in the extents.

    * a value per (p, q), held as [a, b, 1], broadcast over the inner axis reads, at (p, q, r), the operand at (p, q, 0);
    * an [a, b] array given a trailing unit axis reads, at (p, q, 0), the array at (p, q);
    * the sum of an [a, b, c] array over its middle axis reads, at (p, r), the sum over q of the entries (p, q, r);
    * the sum of an [a, b, c] array over its inner axis reads, at (p, q), the sum over r of the entries (p, q, r);
    * the running maximum of an [a, b] array along its second axis, started from the accumulator's value, reads, at
      p, the fold of `max` over the b entries of row p.
-/
import Idealize.ShloMosaic.PureOps.Ideal.Laws
import Idealize.ShloMosaic.Lib.ValueIdx
import Idealize.ShloMosaic.Lib.Pipeline.Value

noncomputable section

open scoped BigOperators

namespace Idealize.ShloMosaic.CapsLayout

open Idealize.ShloMosaic Idealize.ShloMosaic.ValueIdx

variable {α : Type}

/-- A value per outer and middle coordinate, broadcast over the inner axis. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A two-axis array given a trailing unit axis. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h (ix3 p q u) (ix2 p q) (by
    have hu : u.val = 0 := by omega
    rw [Shape.rowMajor_val_two, Shape.rowMajor_val_three]
    show p.val * b + q.val = (p.val * b + q.val) * 1 + u.val
    omega)

/-- The sum over the middle axis, at (p, r), over the extended reals. -/
theorem sum_axis1_apply {a b c : ℕ} {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (p : Fin a) (r : Fin c) :
    multiReduction .add [(1 : Fin 3)] ⟨2, ![a, c]⟩ src acc h hφ hacc (ix2 p r) = ∑ k : Fin b, src (ix3 p k r) := by
  rw [Ideal.multiReduction_add_single]
  refine Finset.sum_congr rfl fun k _ => congrArg src ?_
  funext ax
  apply Fin.ext
  match ax with
  | ⟨0, _⟩ => rfl
  | ⟨1, _⟩ => rfl
  | ⟨2, _⟩ => rfl

/-- The sum over the inner axis, at (p, q), over the extended reals. -/
theorem sum_axis2_apply {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) := by
  rw [Ideal.multiReduction_add_single]
  refine Finset.sum_congr rfl fun k _ => congrArg src ?_
  funext ax
  apply Fin.ext
  match ax with
  | ⟨0, _⟩ => rfl
  | ⟨1, _⟩ => rfl
  | ⟨2, _⟩ => rfl

/-- The maximum along the second axis, at row `p`: the fold of `max` from the accumulator's value over the row. -/
theorem lane_max_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  rw [Ideal.multiReduction_maximumf_single]
  have hf : (src ∘ h.lift (ix1 p)) = fun k : Fin b => src (ix2 p k) :=
    funext fun k => congrArg src (funext fun ax => Fin.ext (by
      match ax with
      | ⟨0, _⟩ => rfl
      | ⟨1, _⟩ => rfl))
  exact congrArg (fun f => Finset.fold max (Ideal.ofBits φ acc) f (Finset.univ : Finset (Fin b))) hf

end Idealize.ShloMosaic.CapsLayout

end
-- ==== Proof.KernelStages.lean ====
/-
  The kernel body's arithmetic, cut into the stages of the routing and read at an entry.

  A block holds 256 batch rows; row p of the block is a table X = (x (p, n, d)) of 64 capsules by 64 coordinates.
  Every stage acts row by row, so its value at (p, ·) is the corresponding row function of Spec.lean applied to row p:

    * `mean0`   the plain mean of the capsules (the first round, where all coupling coefficients are 1/64);
    * `squashV` the squashing of a [256, 64] array of vectors, row by row;
    * `agreeV`  the agreement ⟨x (p, n, ·), v (p, ·)⟩ of every capsule with the row's output vector;
    * `mixV`    the softmax of the logits along the capsule axis followed by the weighted mean of the capsules;
    * `routed`  the three rounds composed, which is what the body stores.
-/
import proofs.«127186_j77833397338704_2_alg».proof.Proof.Gen.KernelIdeal
import proofs.«127186_j77833397338704_2_alg».proof.Proof.Spec
import proofs.«127186_j77833397338704_2_alg».proof.Proof.LibRowOps
import proofs.«127186_j77833397338704_2_alg».proof.Proof.LibOuterLayout
import proofs.«127186_j77833397338704_2_alg».proof.Proof.LibCapsLayout

noncomputable section

open scoped BigOperators

namespace Cert.KernelIdeal.Stages

open Cert.KernelIdeal Cert.KernelIdeal.Facts₀ Idealize.ShloMosaic Idealize.ShloMosaic.ValueIdx Cert.Routing

variable {F : FTy → Type} [FloatOps F]

/-- The mean of the 64 capsules of every row: their sum times the literal 1/64. -/
def mean0 (x : FVec F S256x64x64 .f32) : FVec F S256x64 .f32 :=
  mulf (multiReduction .add [1] S256x64 x 0x00000000#32 reduces_S256x64x64_S256x64 (.inl rfl) rfl)
    (broadcast S256x64 (Scalar.ofBits .f32 0x3C800000#32))

/-- |s|² of every row, kept as a column. -/
def sqnormV (s : FVec F S256x64 .f32) : FVec F S256x1 .f32 :=
  shapeCast S256x1 (multiReduction .add [1] S256 (mulf s s) 0x00000000#32 reduces_S256x64_S256 (.inl rfl) rfl) shapeCasts_S256_S256x1

/-- The squashing of every row. -/
def squashV (s : FVec F S256x64 .f32) : FVec F S256x64 .f32 :=
  mulf (broadcastTo S256x64
      (divf (divf (sqnormV s) (addf (broadcast S256x1 (Scalar.ofBits .f32 0x3F800000#32)) (sqnormV s)))
        (addf (sqrt (sqnormV s)) (broadcast S256x1 (Scalar.ofBits .f32 0x322BCC77#32))))
      broadcasts_S256x1_S256x64) s

/-- The agreement of every capsule with its row's output vector. -/
def agreeV (x : FVec F S256x64x64 .f32) (v : FVec F S256x64 .f32) : FVec F S256x64 .f32 :=
  multiReduction .add [2] S256x64
    (mulf x (broadcastTo S256x64x64 (shapeCast S256x1x64 v shapeCasts_S256x64_S256x1x64) broadcasts_S256x1x64_S256x64x64))
    0x00000000#32 reduces_S256x64x64_S256x64_2 (.inl rfl) rfl

/-- The largest logit of every row, from −∞, as a column broadcast back over the capsules. -/
def topV (b : FVec F S256x64 .f32) : FVec F S256x64 .f32 :=
  broadcastTo S256x64
    (shapeCast S256x1
      (maximumf (broadcast S256 (Scalar.ofBits .f32 0xFF800000#32))
        (multiReduction .maximumf [1] S256 b 0xFF800000#32 reduces_S256x64_S256 (.inl rfl) rfl))
      shapeCasts_S256_S256x1)
    broadcasts_S256x1_S256x64

/-- The shifted exponentials of the logits. -/
def expV (b : FVec F S256x64 .f32) : FVec F S256x64 .f32 := exp (subf b (topV b))

/-- The softmax of the logits along the capsule axis. -/
def softV (b : FVec F S256x64 .f32) : FVec F S256x64 .f32 :=
  divf (expV b)
    (broadcastTo S256x64
      (shapeCast S256x1 (multiReduction .add [1] S256 (expV b) 0x00000000#32 reduces_S256x64_S256 (.inl rfl) rfl) shapeCasts_S256_S256x1)
      broadcasts_S256x1_S256x64)

/-- The capsules of every row mixed with the softmax of its logits. -/
def mixV (x : FVec F S256x64x64 .f32) (b : FVec F S256x64 .f32) : FVec F S256x64 .f32 :=
  multiReduction .add [1] S256x64
    (mulf (broadcastTo S256x64x64 (shapeCast S256x64x1 (softV b) shapeCasts_S256x64_S256x64x1) broadcasts_S256x64x1_S256x64x64) x)
    0x00000000#32 reduces_S256x64x64_S256x64 (.inl rfl) rfl

/-- Three rounds of routing on every row of the block. -/
def routed (x : FVec F S256x64x64 .f32) : FVec F S256x64 .f32 :=
  squashV (mixV x (addf (agreeV x (squashV (mean0 x))) (agreeV x (squashV (mixV x (agreeV x (squashV (mean0 x))))))))

/-! ## The stages at an entry, over the extended reals -/

set_option backward.isDefEq.respectTransparency.types false in
theorem mean0_apply (x : FVec Ideal S256x64x64 .f32) (p : Fin 256) (d : Fin 64) :
    mean0 x (ix2 p d) = (∑ n : Fin 64, x (ix3 p n d)) * inv64 := by
  show multiReduction .add [1] S256x64 x 0x00000000#32 reduces_S256x64x64_S256x64 (.inl rfl) rfl (ix2 p d) * inv64 = _
  rw [CapsLayout.sum_axis1_apply]

set_option backward.isDefEq.respectTransparency.types false in
theorem sqnormV_apply (s : FVec Ideal S256x64 .f32) (p : Fin 256) :
    sqnormV s (ix2 p (0 : Fin 1)) = sqnorm fun k => s (ix2 p k) := by
  unfold sqnormV
  rw [RowOps.shapeCast_a_a1_apply, RowOps.lane_sum_apply]
  rfl

theorem squashV_apply (s : FVec Ideal S256x64 .f32) (p : Fin 256) (d : Fin 64) :
    squashV s (ix2 p d) = squash (fun k => s (ix2 p k)) d := by
  show broadcastTo S256x64 _ broadcasts_S256x1_S256x64 (ix2 p d) * s (ix2 p d) = _
  rw [RowOps.broadcastTo_a1_ab_apply]
  show Ideal.div (Ideal.div (sqnormV s (ix2 p 0)) (one + sqnormV s (ix2 p 0))) (Ideal.sqrt (sqnormV s (ix2 p 0)) + tiny) * s (ix2 p d) = _
  rw [sqnormV_apply]
  rfl

set_option backward.isDefEq.respectTransparency.types false in
theorem agreeV_apply (x : FVec Ideal S256x64x64 .f32) (v : FVec Ideal S256x64 .f32) (p : Fin 256) (n : Fin 64) :
    agreeV x v (ix2 p n) = agree (fun n d => x (ix3 p n d)) (fun d => v (ix2 p d)) n := by
  unfold agreeV
  rw [CapsLayout.sum_axis2_apply]
  refine Finset.sum_congr rfl fun k _ => ?_
  show x (ix3 p n k) * broadcastTo S256x64x64 _ broadcasts_S256x1x64_S256x64x64 (ix3 p n k) = _
  rw [OuterLayout.broadcastTo_a1c_abc_apply, OuterLayout.shapeCast_ac_a1c_apply]

set_option backward.isDefEq.respectTransparency.types false in
theorem topV_apply (b : FVec Ideal S256x64 .f32) (p : Fin 256) (n : Fin 64) :
    topV b (ix2 p n) = top fun k => b (ix2 p k) := by
  unfold topV
  rw [RowOps.broadcastTo_a1_ab_apply, RowOps.shapeCast_a_a1_apply]
  show max ninf (multiReduction .maximumf [1] S256 b 0xFF800000#32 reduces_S256x64_S256 (.inl rfl) rfl (ix1 p)) = _
  rw [CapsLayout.lane_max_apply]
  rfl

theorem expV_apply (b : FVec Ideal S256x64 .f32) (p : Fin 256) (n : Fin 64) :
    expV b (ix2 p n) = Ideal.exp (b (ix2 p n) - top fun k => b (ix2 p k)) := by
  show Ideal.exp (b (ix2 p n) - topV b (ix2 p n)) = _
  rw [topV_apply]

set_option backward.isDefEq.respectTransparency.types false in
theorem softV_apply (b : FVec Ideal S256x64 .f32) (p : Fin 256) (n : Fin 64) :
    softV b (ix2 p n) = soft (fun k => b (ix2 p k)) n := by
  show Ideal.div (expV b (ix2 p n)) (broadcastTo S256x64 _ broadcasts_S256x1_S256x64 (ix2 p n)) = _
  rw [RowOps.broadcastTo_a1_ab_apply, RowOps.shapeCast_a_a1_apply, RowOps.lane_sum_apply]
  simp only [expV_apply]
  rfl

set_option backward.isDefEq.respectTransparency.types false in
theorem mixV_apply (x : FVec Ideal S256x64x64 .f32) (b : FVec Ideal S256x64 .f32) (p : Fin 256) (d : Fin 64) :
    mixV x b (ix2 p d) = mix (fun n d => x (ix3 p n d)) (soft fun k => b (ix2 p k)) d := by
  unfold mixV
  rw [CapsLayout.sum_axis1_apply]
  refine Finset.sum_congr rfl fun k _ => ?_
  show broadcastTo S256x64x64 _ broadcasts_S256x64x1_S256x64x64 (ix3 p k d) * x (ix3 p k d) = _
  rw [CapsLayout.broadcastTo_ab1_abc_apply, CapsLayout.shapeCast_ab_ab1_apply, softV_apply]

/-- What the body stores, at row `p`: the routing of row `p` of the block. -/
theorem routed_apply (x : FVec Ideal S256x64x64 .f32) (p : Fin 256) (d : Fin 64) :
    routed x (ix2 p d) = route (fun n d => x (ix3 p n d)) d := by
  unfold routed route
  simp only [squashV_apply, mixV_apply, agreeV_apply, mean0_apply, addf_apply]

end Cert.KernelIdeal.Stages

end
-- ==== Proof.KernelValue.lean ====
/-
  What the kernel's result array holds after the run: the routing of every batch row.

  The grid has 64 points; point t stages rows 256 t … 256 t + 255 of the input, the body stores the routing of each of
  those rows (KernelStages.lean), and the pipeline writes the [256, 64] block back to rows 256 t … 256 t + 255 of the
  result.  Row r of the result is therefore written by point r / 256, from row r of the input, and the blocks tile the
  result: the array ends holding `G` of the input.
-/
import proofs.«127186_j77833397338704_2_alg».proof.Proof.Gen.KernelIdeal.Frame
import proofs.«127186_j77833397338704_2_alg».proof.Proof.KernelStages
import Idealize.ShloMosaic.Lib.Pipeline.Value

noncomputable section

namespace Cert.KernelIdeal.RouteValue

open Cert.KernelIdeal Cert.KernelIdeal.Gen Cert.KernelIdeal.Stages Cert.Routing
open Idealize.ShloMosaic Idealize.ShloMosaic.TcCoe Idealize.SL.Sem Idealize.ShloMosaic.ValueIdx
open Idealize.ShloMosaic.Pipeline (Dat)

/-- The value the body stores is the three rounds of routing of the block it loaded. -/
theorem payload_eq {F : FTy → Type} [FloatOps F] (x : Vec F S256x64x64 .f32) :
    k0_pay1 x (k0_pay2 x) (k0_pay3 x) (k0_pay5 x) (k0_pay6 x) (k0_pay7 (F := F)) = routed x := rfl

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The two index maps over the grid: both windows move along the batch axis together and stay at block 0 on the
    other axes. -/
theorem idx_facts : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0 ∧ win0_1.index t (0 : Fin 2) ≤ 63 :=
  (by decide +kernel : ∀ t : Fin grid0.N, _)

/-- Every block of 256 rows of the result is some point's. -/
theorem idx_onto : ∀ q : Fin 64, ∃ t : Fin cfg0.N, win0_1.index t = ![q.val, 0] :=
  (by decide +kernel : ∀ q : Fin 64, ∃ t : Fin grid0.N, win0_1.index t = ![q.val, 0])

/-- Row p of the input block at point t is row (block index) · 256 + p of the input array. -/
theorem iblk_apply (c : Dev nD) (t : Fin cfg0.N) (p : Fin 256) (n k : Fin 64) (r : Fin 16384)
    (hr : r.val = win0_1.index t (0 : Fin 2) * 256 + p.val) :
    (iblk m c 0 t : Vec Ideal S256x64x64 .f32) (ix3 p n k) = (V m c main_arg0 : S16384x64x64.Idx → EReal) (ix3 r n k) := by
  obtain ⟨e0, e1, e2, e3, e4⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 3) * 256 + 1 * p.val = r.val; omega
  | ⟨1, _⟩ => show win0_0.index t (1 : Fin 3) * 64 + 1 * n.val = n.val; omega
  | ⟨2, _⟩ => show win0_0.index t (2 : Fin 3) * 64 + 1 * k.val = k.val; omega

/-- What point t writes back is block t of `G` of the input. -/
theorem flushed_eq (c : Dev nD) (t : Fin cfg0.N) :
    (dats m 0 c).flushed 1 t = ((cfg0.win 1).blk t).view.read (Elt Ideal) (G (V m c main_arg0)) := by
  show (cfg0.win 1).cut (grid0.coords t) ((dats m 0 c).after 1 t) = _
  rw [after0_1]
  unfold out0_1
  rw [View.canon_unit_zero hz2]
  simp only [View.ld_unit_zero (S := S256x64x64) hz3]
  rw [payload_eq]
  obtain ⟨e0, e1, e2, e3, e4⟩ := idx_facts t
  funext j
  obtain ⟨p, d, rfl⟩ : ∃ (p : Fin 256) (d : Fin 64), j = ix2 p d := ⟨j 0, j 1, eq_ix2 j⟩
  show routed (F := Ideal) (iblk m c 0 t : Vec Ideal S256x64x64 .f32) (ix2 p d) = G (V m c main_arg0) (((cfg0.win 1).blk t).view.emb (ix2 p d))
  rw [routed_apply]
  have hlt : win0_1.index t (0 : Fin 2) * 256 + p.val < 16384 := by have := p.isLt; omega
  have hemb : ((cfg0.win 1).blk t).view.emb (ix2 p d) = ix2 (⟨win0_1.index t (0 : Fin 2) * 256 + p.val, hlt⟩ : Fin 16384) d := by
    funext a
    apply Fin.ext
    match a with
    | ⟨0, _⟩ => show win0_1.index t (0 : Fin 2) * 256 + 1 * p.val = win0_1.index t (0 : Fin 2) * 256 + p.val; omega
    | ⟨1, _⟩ => show win0_1.index t (1 : Fin 2) * 64 + 1 * d.val = d.val; omega
  rw [hemb, G_apply]
  exact congrArg (fun X => route X d) (funext fun n => funext fun k => iblk_apply m c t p n k _ rfl)

/-- An index of the result is in point t's block iff each coordinate is in the block's range on its axis. -/
theorem mem_blk (t : Fin cfg0.N) (i : S16384x64.Idx) :
    i ∈ ((cfg0.win 1).blk t).view.set ↔ ∀ a : Fin 2, win0_1.index t a * S256x64.size a ≤ (i a).val ∧ (i a).val < win0_1.index t a * S256x64.size a + S256x64.size a := by
  show i ∈ ((View.whole main_v0).slice (win0_1.rect t)).set ↔ _
  rw [View.set_slice_whole, Rect.mem_set_unit]
  exact Iff.rfl

/-- Row r of the result lies in the block of the point whose block index is r / 256. -/
theorem cover (i : S16384x64.Idx) :
    ∃ t : Fin cfg0.N, (cfg0.win 1).flush t = true ∧ i ∈ ((cfg0.win 1).blk t).view.set := by
  have hi0 : (i 0).val < 16384 := (i 0).isLt
  have hi1 : (i 1).val < 64 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 64 ≤ (i 1).val ∧ (i 1).val < win0_1.index t (1 : Fin 2) * 64 + 64; omega

/-- The result array after the run is `G` of the input array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run, read: the result at `G` of the input, the input unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.RouteValue

end
-- ==== Proof.RefFns.lean ====
/-
  The vector-level functions the reference program's stages compute, for three routing rounds.

  A routing round is: the softmax-weighted mean of the capsules under the current logits (`rMix`), the squashing of
  that mean (`rSq`), and — except after the last round — the logits' update by each capsule's agreement with the
  squashed mean (`rAgree`).  The logits start at zero (`rZero`).  Each function below is the exact chain of the
  program's operations for that stage, over whole arrays; `rOut` composes them, naming each intermediate array once.
-/
import proofs.«127186_j77833397338704_2_alg».proof.Proof.Gen.ReferenceIdeal

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

/-! ## The stages as functions of whole arrays -/

/-- The zero scalar and the −∞ scalar, the initial values of the sums and of the maximum. -/
abbrev cZero : FVec F S_ .f32 := constant S_ .f32 0x00000000#32
abbrev cNinf : FVec F S_ .f32 := constant S_ .f32 0xFF800000#32

/-- The initial logits: zero for every capsule of every row. -/
def rZero : FVec F S16384x64x1 .f32 := broadcastInDim S16384x64x1 ![] bcast_S_S16384x64x1 (cZero (F := F))

/-- The softmax's shift of each row: the largest logit, computed from −∞ and once more joined with −∞. -/
def rTop (b : FVec F S16384x64x1 .f32) : FVec F S16384x1 .f32 :=
  maximumf (broadcastInDim S16384x1 ![] bcast_S_S16384x1 (cNinf (F := F)))
    (Host.reduce FloatOps.maximumf b (cNinf (F := F)) reducesTo_S16384x64x1_S16384x1_d1 h_S_)

/-- A per-row scalar spread over the row's capsules. -/
def rSpread (t : FVec F S16384x1 .f32) : FVec F S16384x64x1 .f32 :=
  broadcastInDim S16384x64x1 ![0, 1, 2] bcast_S16384x1x1_S16384x64x1_0_1_2
    (broadcastInDim S16384x1x1 ![0, 2] bcast_S16384x1_S16384x1x1_0_2 t)

/-- The exponentials of the shifted logits. -/
def rExp (b : FVec F S16384x64x1 .f32) : FVec F S16384x64x1 .f32 :=
  Host.exp (subf b (rSpread (rTop b)))

/-- The coupling coefficients: each exponential over the row's sum of them. -/
def rSoft (b : FVec F S16384x64x1 .f32) : FVec F S16384x64x1 .f32 :=
  Host.divf (rExp b)
    (rSpread (Host.reduceAdd (rExp b) (cZero (F := F)) reducesTo_S16384x64x1_S16384x1_d1 h_S_))

/-- The capsules of each row mixed with the coupling coefficients of logits `b`. -/
def rMix (x : FVec F S16384x64x64 .f32) (b : FVec F S16384x64x1 .f32) : FVec F S16384x64 .f32 :=
  Host.reduceAdd
    (mulf (broadcastInDim S16384x64x64 ![0, 1, 2] bcast_S16384x64x1_S16384x64x64_0_1_2 (rSoft b)) x)
    (cZero (F := F)) reducesTo_S16384x64x64_S16384x64_d1 h_S_

/-- The norm of each row of `s`: the root of the sum of its squared coordinates. -/
def rNorm (s : FVec F S16384x64 .f32) : FVec F S16384x1 .f32 :=
  Host.sqrt (broadcastInDim S16384x1 ![0] bcast_S16384_S16384x1_0
    (Host.reduceAdd (mulf s s) (cZero (F := F)) reducesTo_S16384x64_S16384_d1 h_S_))

/-- The squashing factor of a row from its norm `nr`: nr² / (1 + nr²) / (nr + ε). -/
def rScale (nr : FVec F S16384x1 .f32) : FVec F S16384x1 .f32 :=
  Host.divf
    (Host.divf (mulf nr nr)
      (addf (broadcastInDim S16384x1 ![] bcast_S_S16384x1 (constant (F := F) S_ .f32 0x3F800000#32)) (mulf nr nr)))
    (addf nr (broadcastInDim S16384x1 ![] bcast_S_S16384x1 (constant (F := F) S_ .f32 0x322BCC77#32)))

/-- Each row of `s` squashed. -/
def rSq (s : FVec F S16384x64 .f32) : FVec F S16384x64 .f32 :=
  mulf (broadcastInDim S16384x64 ![0, 1] bcast_S16384x1_S16384x64_0_1 (rScale (rNorm s))) s

/-- The logits `b` raised by each capsule's inner product with the row's output vector `v`. -/
def rAgree (x : FVec F S16384x64x64 .f32) (v : FVec F S16384x64 .f32) (b : FVec F S16384x64x1 .f32) :
    FVec F S16384x64x1 .f32 :=
  addf b (broadcastInDim S16384x64x1 ![0, 1] bcast_S16384x64_S16384x64x1_0_1
    (Host.reduceAdd
      (mulf x (broadcastInDim S16384x64x64 ![0, 1, 2] bcast_S16384x1x64_S16384x64x64_0_1_2
        (broadcastInDim S16384x1x64 ![0, 2] bcast_S16384x64_S16384x1x64_0_2 v)))
      (cZero (F := F)) reducesTo_S16384x64x64_S16384x64_d2 h_S_))

/-- Three rounds. -/
def rOut (x : FVec F S16384x64x64 .f32) : FVec F S16384x64 .f32 :=
  let b0 : FVec F S16384x64x1 .f32 := rZero
  let v0 := rSq (rMix x b0)
  let b1 := rAgree x v0 b0
  let v1 := rSq (rMix x b1)
  let b2 := rAgree x v1 b1
  rSq (rMix x b2)

end Cert.ReferenceIdeal.RefValue

end
-- ==== Proof.RefOps.lean ====
/-
  The reference program as a straight line of 121 host operations — the outlined norm function's five operations
  written out at each of its three calls — cut into eight consecutive pieces, one per stage of a routing round:
  the weighted mean (A), the norm and the squashing (B), the agreement and the new logits (C); the last round has no C.
-/
import proofs.«127186_j77833397338704_2_alg».proof.Proof.RefFns
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

/-- Round 1: the initial logits and the weighted mean (%cst … %14). -/
abbrev A0 : List (HloOp τ sig (Elt F)) :=
  [ nullary main_cst (constant S_ .f32 0x00000000#32),
    unary main_cst main_v0 (broadcastInDim S16384x64x1 ![] bcast_S_S16384x64x1 : (⟨S_, .f32⟩ : BufTy).Contents (Elt F) → (⟨S16384x64x1, .f32⟩ : BufTy).Contents (Elt F)),
    nullary main_cst_0 (constant S_ .f32 0xFF800000#32),
    binary main_v0 main_cst_0 main_v1 ((fun x v => Host.reduce FloatOps.maximumf x v reducesTo_S16384x64x1_S16384x1_d1 h_S_) : (⟨S16384x64x1, .f32⟩ : BufTy).Contents (Elt F) → (⟨S_, .f32⟩ : BufTy).Contents (Elt F) → (⟨S16384x1, .f32⟩ : BufTy).Contents (Elt F)),
    nullary main_cst_1 (constant S_ .f32 0xFF800000#32),
    unary main_cst_1 main_v2 (broadcastInDim S16384x1 ![] bcast_S_S16384x1 : (⟨S_, .f32⟩ : BufTy).Contents (Elt F) → (⟨S16384x1, .f32⟩ : BufTy).Contents (Elt F)),
    binary main_v2 main_v1 main_v3 (maximumf : (⟨S16384x1, .f32⟩ : BufTy).Contents (Elt F) → (⟨S16384x1, .f32⟩ : BufTy).Contents (Elt F) → (⟨S16384x1, .f32⟩ : BufTy).Contents (Elt F)),
    unary main_v3 main_v4 (broadcastInDim S16384x1x1 ![0, 2] bcast_S16384x1_S16384x1x1_0_2 : (⟨S16384x1, .f32⟩ : BufTy).Contents (Elt F) → (⟨S16384x1x1, .f32⟩ : BufTy).Contents (Elt F)),
    unary main_v4 main_v5 (broadcastInDim S16384x64x1 ![0, 1, 2] bcast_S16384x1x1_S16384x64x1_0_1_2 : (⟨S16384x1x1, .f32⟩ : BufTy).Contents (Elt F) → (⟨S16384x64x1, .f32⟩ : BufTy).Contents (Elt F)),
    binary main_v0 main_v5 main_v6 (subf : (⟨S16384x64x1, .f32⟩ : BufTy).Contents (Elt F) → (⟨S16384x64x1, .f32⟩ : BufTy).Contents (Elt F) → (⟨S16384x64x1, .f32⟩ : BufTy).Contents (Elt F)),
    unary main_v6 main_v7 (Host.exp : (⟨S16384x64x1, .f32⟩ : BufTy).Contents (Elt F) → (⟨S16384x64x1, .f32⟩ : BufTy).Contents (Elt F)),
    nullary main_cst_2 (constant S_ .f32 0x00000000#32),
    binary main_v7 main_cst_2 main_v8 ((fun x v => Host.reduceAdd x v reducesTo_S16384x64x1_S16384x1_d1 h_S_) : (⟨S16384x64x1, .f32⟩ : BufTy).Contents (Elt F) → (⟨S_, .f32⟩ : BufTy).Contents (Elt F) → (⟨S16384x1, .f32⟩ : BufTy).Contents (Elt F)),
    unary main_v8 main_v9 (broadcastInDim S16384x1x1 ![0, 2] bcast_S16384x1_S16384x1x1_0_2 : (⟨S16384x1, .f32⟩ : BufTy).Contents (Elt F) → (⟨S16384x1x1, .f32⟩ : BufTy).Contents (Elt F)),
    unary main_v9 main_v10 (broadcastInDim S16384x64x1 ![0, 1, 2] bcast_S16384x1x1_S16384x64x1_0_1_2 : (⟨S16384x1x1, .f32⟩ : BufTy).Contents (Elt F) → (⟨S16384x64x1, .f32⟩ : BufTy).Contents (Elt F)),
    binary main_v7 main_v10 main_v11 (Host.divf : (⟨S16384x64x1, .f32⟩ : BufTy).Contents (Elt F) → (⟨S16384x64x1, .f32⟩ : BufTy).Contents (Elt F) → (⟨S16384x64x1, .f32⟩ : BufTy).Contents (Elt F)),
    unary main_v11 main_v12 (broadcastInDim S16384x64x64 ![0, 1, 2] bcast_S16384x64x1_S16384x64x64_0_1_2 : (⟨S16384x64x1, .f32⟩ : BufTy).Contents (Elt F) → (⟨S16384x64x64, .f32⟩ : BufTy).Contents (Elt F)),
    binary main_v12 main_arg0 main_v13 (mulf : (⟨S16384x64x64, .f32⟩ : BufTy).Contents (Elt F) → (⟨S16384x64x64, .f32⟩ : BufTy).Contents (Elt F) → (⟨S16384x64x64, .f32⟩ : BufTy).Contents (Elt F)),
    nullary main_cst_3 (constant S_ .f32 0x00000000#32),
    binary main_v13 main_cst_3 main_v14 ((fun x v => Host.reduceAdd x v reducesTo_S16384x64x64_S16384x64_d1 h_S_) : (⟨S16384x64x64, .f32⟩ : BufTy).Contents (Elt F) → (⟨S_, .f32⟩ : BufTy).Contents (Elt F) → (⟨S16384x64, .f32⟩ : BufTy).Contents (Elt F)) ]

/-- Round 1: the norm (the outlined function's five operations) and the squashing (… %25). -/
abbrev B0 : List (HloOp τ sig (Elt F)) :=
  [ TRef.binary (TRef.of (T := ⟨S16384x64, .f32⟩) main_v14) (TRef.of (T := ⟨S16384x64, .f32⟩) main_v14) (TRef.of (T := ⟨S16384x64, .f32⟩) main_call0_v0) mulf,
    TRef.nullary (TRef.of (T := ⟨S_, .f32⟩) main_call0_cst) (constant S_ .f32 0x00000000#32),
    TRef.binary (TRef.of (T := ⟨S16384x64, .f32⟩) main_call0_v0) (TRef.of (T := ⟨S_, .f32⟩) main_call0_cst) (TRef.of (T := ⟨S16384, .f32⟩) main_call0_v1) (fun x v => Host.reduceAdd x v reducesTo_S16384x64_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v15) Host.sqrt,
    binary main_v15 main_v15 main_v16 (mulf : (⟨S16384x1, .f32⟩ : BufTy).Contents (Elt F) → (⟨S16384x1, .f32⟩ : BufTy).Contents (Elt F) → (⟨S16384x1, .f32⟩ : BufTy).Contents (Elt F)),
    binary main_v15 main_v15 main_v17 (mulf : (⟨S16384x1, .f32⟩ : BufTy).Contents (Elt F) → (⟨S16384x1, .f32⟩ : BufTy).Contents (Elt F) → (⟨S16384x1, .f32⟩ : BufTy).Contents (Elt F)),
    nullary main_cst_4 (constant S_ .f32 0x3F800000#32),
    unary main_cst_4 main_v18 (broadcastInDim S16384x1 ![] bcast_S_S16384x1 : (⟨S_, .f32⟩ : BufTy).Contents (Elt F) → (⟨S16384x1, .f32⟩ : BufTy).Contents (Elt F)),
    binary main_v18 main_v17 main_v19 (addf : (⟨S16384x1, .f32⟩ : BufTy).Contents (Elt F) → (⟨S16384x1, .f32⟩ : BufTy).Contents (Elt F) → (⟨S16384x1, .f32⟩ : BufTy).Contents (Elt F)),
    binary main_v16 main_v19 main_v20 (Host.divf : (⟨S16384x1, .f32⟩ : BufTy).Contents (Elt F) → (⟨S16384x1, .f32⟩ : BufTy).Contents (Elt F) → (⟨S16384x1, .f32⟩ : BufTy).Contents (Elt F)),
    nullary main_cst_5 (constant S_ .f32 0x322BCC77#32),
    unary main_cst_5 main_v21 (broadcastInDim S16384x1 ![] bcast_S_S16384x1 : (⟨S_, .f32⟩ : BufTy).Contents (Elt F) → (⟨S16384x1, .f32⟩ : BufTy).Contents (Elt F)),
    binary main_v15 main_v21 main_v22 (addf : (⟨S16384x1, .f32⟩ : BufTy).Contents (Elt F) → (⟨S16384x1, .f32⟩ : BufTy).Contents (Elt F) → (⟨S16384x1, .f32⟩ : BufTy).Contents (Elt F)),
    binary main_v20 main_v22 main_v23 (Host.divf : (⟨S16384x1, .f32⟩ : BufTy).Contents (Elt F) → (⟨S16384x1, .f32⟩ : BufTy).Contents (Elt F) → (⟨S16384x1, .f32⟩ : BufTy).Contents (Elt F)),
    unary main_v23 main_v24 (broadcastInDim S16384x64 ![0, 1] bcast_S16384x1_S16384x64_0_1 : (⟨S16384x1, .f32⟩ : BufTy).Contents (Elt F) → (⟨S16384x64, .f32⟩ : BufTy).Contents (Elt F)),
    binary main_v24 main_v14 main_v25 (mulf : (⟨S16384x64, .f32⟩ : BufTy).Contents (Elt F) → (⟨S16384x64, .f32⟩ : BufTy).Contents (Elt F) → (⟨S16384x64, .f32⟩ : BufTy).Contents (Elt F)) ]

/-- Round 1: the agreement and the new logits (%26 … %31). -/
abbrev C0 : List (HloOp τ sig (Elt F)) :=
  [ unary main_v25 main_v26 (broadcastInDim S16384x1x64 ![0, 2] bcast_S16384x64_S16384x1x64_0_2 : (⟨S16384x64, .f32⟩ : BufTy).Contents (Elt F) → (⟨S16384x1x64, .f32⟩ : BufTy).Contents (Elt F)),
    unary main_v26 main_v27 (broadcastInDim S16384x64x64 ![0, 1, 2] bcast_S16384x1x64_S16384x64x64_0_1_2 : (⟨S16384x1x64, .f32⟩ : BufTy).Contents (Elt F) → (⟨S16384x64x64, .f32⟩ : BufTy).Contents (Elt F)),
    binary main_arg0 main_v27 main_v28 (mulf : (⟨S16384x64x64, .f32⟩ : BufTy).Contents (Elt F) → (⟨S16384x64x64, .f32⟩ : BufTy).Contents (Elt F) → (⟨S16384x64x64, .f32⟩ : BufTy).Contents (Elt F)),
    nullary main_cst_6 (constant S_ .f32 0x00000000#32),
    binary main_v28 main_cst_6 main_v29 ((fun x v => Host.reduceAdd x v reducesTo_S16384x64x64_S16384x64_d2 h_S_) : (⟨S16384x64x64, .f32⟩ : BufTy).Contents (Elt F) → (⟨S_, .f32⟩ : BufTy).Contents (Elt F) → (⟨S16384x64, .f32⟩ : BufTy).Contents (Elt F)),
    unary main_v29 main_v30 (broadcastInDim S16384x64x1 ![0, 1] bcast_S16384x64_S16384x64x1_0_1 : (⟨S16384x64, .f32⟩ : BufTy).Contents (Elt F) → (⟨S16384x64x1, .f32⟩ : BufTy).Contents (Elt F)),
    binary main_v0 main_v30 main_v31 (addf : (⟨S16384x64x1, .f32⟩ : BufTy).Contents (Elt F) → (⟨S16384x64x1, .f32⟩ : BufTy).Contents (Elt F) → (⟨S16384x64x1, .f32⟩ : BufTy).Contents (Elt F)) ]

/-- Round 2: the weighted mean (%cst_7 … %45). -/
abbrev A1 : List (HloOp τ sig (Elt F)) :=
  [ nullary main_cst_7 (constant S_ .f32 0xFF800000#32),
    binary main_v31 main_cst_7 main_v32 ((fun x v => Host.reduce FloatOps.maximumf x v reducesTo_S16384x64x1_S16384x1_d1 h_S_) : (⟨S16384x64x1, .f32⟩ : BufTy).Contents (Elt F) → (⟨S_, .f32⟩ : BufTy).Contents (Elt F) → (⟨S16384x1, .f32⟩ : BufTy).Contents (Elt F)),
    nullary main_cst_8 (constant S_ .f32 0xFF800000#32),
    unary main_cst_8 main_v33 (broadcastInDim S16384x1 ![] bcast_S_S16384x1 : (⟨S_, .f32⟩ : BufTy).Contents (Elt F) → (⟨S16384x1, .f32⟩ : BufTy).Contents (Elt F)),
    binary main_v33 main_v32 main_v34 (maximumf : (⟨S16384x1, .f32⟩ : BufTy).Contents (Elt F) → (⟨S16384x1, .f32⟩ : BufTy).Contents (Elt F) → (⟨S16384x1, .f32⟩ : BufTy).Contents (Elt F)),
    unary main_v34 main_v35 (broadcastInDim S16384x1x1 ![0, 2] bcast_S16384x1_S16384x1x1_0_2 : (⟨S16384x1, .f32⟩ : BufTy).Contents (Elt F) → (⟨S16384x1x1, .f32⟩ : BufTy).Contents (Elt F)),
    unary main_v35 main_v36 (broadcastInDim S16384x64x1 ![0, 1, 2] bcast_S16384x1x1_S16384x64x1_0_1_2 : (⟨S16384x1x1, .f32⟩ : BufTy).Contents (Elt F) → (⟨S16384x64x1, .f32⟩ : BufTy).Contents (Elt F)),
    binary main_v31 main_v36 main_v37 (subf : (⟨S16384x64x1, .f32⟩ : BufTy).Contents (Elt F) → (⟨S16384x64x1, .f32⟩ : BufTy).Contents (Elt F) → (⟨S16384x64x1, .f32⟩ : BufTy).Contents (Elt F)),
    unary main_v37 main_v38 (Host.exp : (⟨S16384x64x1, .f32⟩ : BufTy).Contents (Elt F) → (⟨S16384x64x1, .f32⟩ : BufTy).Contents (Elt F)),
    nullary main_cst_9 (constant S_ .f32 0x00000000#32),
    binary main_v38 main_cst_9 main_v39 ((fun x v => Host.reduceAdd x v reducesTo_S16384x64x1_S16384x1_d1 h_S_) : (⟨S16384x64x1, .f32⟩ : BufTy).Contents (Elt F) → (⟨S_, .f32⟩ : BufTy).Contents (Elt F) → (⟨S16384x1, .f32⟩ : BufTy).Contents (Elt F)),
    unary main_v39 main_v40 (broadcastInDim S16384x1x1 ![0, 2] bcast_S16384x1_S16384x1x1_0_2 : (⟨S16384x1, .f32⟩ : BufTy).Contents (Elt F) → (⟨S16384x1x1, .f32⟩ : BufTy).Contents (Elt F)),
    unary main_v40 main_v41 (broadcastInDim S16384x64x1 ![0, 1, 2] bcast_S16384x1x1_S16384x64x1_0_1_2 : (⟨S16384x1x1, .f32⟩ : BufTy).Contents (Elt F) → (⟨S16384x64x1, .f32⟩ : BufTy).Contents (Elt F)),
    binary main_v38 main_v41 main_v42 (Host.divf : (⟨S16384x64x1, .f32⟩ : BufTy).Contents (Elt F) → (⟨S16384x64x1, .f32⟩ : BufTy).Contents (Elt F) → (⟨S16384x64x1, .f32⟩ : BufTy).Contents (Elt F)),
    unary main_v42 main_v43 (broadcastInDim S16384x64x64 ![0, 1, 2] bcast_S16384x64x1_S16384x64x64_0_1_2 : (⟨S16384x64x1, .f32⟩ : BufTy).Contents (Elt F) → (⟨S16384x64x64, .f32⟩ : BufTy).Contents (Elt F)),
    binary main_v43 main_arg0 main_v44 (mulf : (⟨S16384x64x64, .f32⟩ : BufTy).Contents (Elt F) → (⟨S16384x64x64, .f32⟩ : BufTy).Contents (Elt F) → (⟨S16384x64x64, .f32⟩ : BufTy).Contents (Elt F)),
    nullary main_cst_10 (constant S_ .f32 0x00000000#32),
    binary main_v44 main_cst_10 main_v45 ((fun x v => Host.reduceAdd x v reducesTo_S16384x64x64_S16384x64_d1 h_S_) : (⟨S16384x64x64, .f32⟩ : BufTy).Contents (Elt F) → (⟨S_, .f32⟩ : BufTy).Contents (Elt F) → (⟨S16384x64, .f32⟩ : BufTy).Contents (Elt F)) ]

/-- Round 2: the norm and the squashing (… %56). -/
abbrev B1 : List (HloOp τ sig (Elt F)) :=
  [ TRef.binary (TRef.of (T := ⟨S16384x64, .f32⟩) main_v45) (TRef.of (T := ⟨S16384x64, .f32⟩) main_v45) (TRef.of (T := ⟨S16384x64, .f32⟩) main_call1_v0) mulf,
    TRef.nullary (TRef.of (T := ⟨S_, .f32⟩) main_call1_cst) (constant S_ .f32 0x00000000#32),
    TRef.binary (TRef.of (T := ⟨S16384x64, .f32⟩) main_call1_v0) (TRef.of (T := ⟨S_, .f32⟩) main_call1_cst) (TRef.of (T := ⟨S16384, .f32⟩) main_call1_v1) (fun x v => Host.reduceAdd x v reducesTo_S16384x64_S16384_d1 h_S_),
    TRef.unary (TRef.of (T := ⟨S16384, .f32⟩) main_call1_v1) (TRef.of (T := ⟨S16384x1, .f32⟩) main_call1_v2) (broadcastInDim S16384x1 ![0] bcast_S16384_S16384x1_0),
    TRef.unary (TRef.of (T := ⟨S16384x1, .f32⟩) main_call1_v2) (TRef.of (T := ⟨S16384x1, .f32⟩) main_v46) Host.sqrt,
    binary main_v46 main_v46 main_v47 (mulf : (⟨S16384x1, .f32⟩ : BufTy).Contents (Elt F) → (⟨S16384x1, .f32⟩ : BufTy).Contents (Elt F) → (⟨S16384x1, .f32⟩ : BufTy).Contents (Elt F)),
    binary main_v46 main_v46 main_v48 (mulf : (⟨S16384x1, .f32⟩ : BufTy).Contents (Elt F) → (⟨S16384x1, .f32⟩ : BufTy).Contents (Elt F) → (⟨S16384x1, .f32⟩ : BufTy).Contents (Elt F)),
    nullary main_cst_11 (constant S_ .f32 0x3F800000#32),
    unary main_cst_11 main_v49 (broadcastInDim S16384x1 ![] bcast_S_S16384x1 : (⟨S_, .f32⟩ : BufTy).Contents (Elt F) → (⟨S16384x1, .f32⟩ : BufTy).Contents (Elt F)),
    binary main_v49 main_v48 main_v50 (addf : (⟨S16384x1, .f32⟩ : BufTy).Contents (Elt F) → (⟨S16384x1, .f32⟩ : BufTy).Contents (Elt F) → (⟨S16384x1, .f32⟩ : BufTy).Contents (Elt F)),
    binary main_v47 main_v50 main_v51 (Host.divf : (⟨S16384x1, .f32⟩ : BufTy).Contents (Elt F) → (⟨S16384x1, .f32⟩ : BufTy).Contents (Elt F) → (⟨S16384x1, .f32⟩ : BufTy).Contents (Elt F)),
    nullary main_cst_12 (constant S_ .f32 0x322BCC77#32),
    unary main_cst_12 main_v52 (broadcastInDim S16384x1 ![] bcast_S_S16384x1 : (⟨S_, .f32⟩ : BufTy).Contents (Elt F) → (⟨S16384x1, .f32⟩ : BufTy).Contents (Elt F)),
    binary main_v46 main_v52 main_v53 (addf : (⟨S16384x1, .f32⟩ : BufTy).Contents (Elt F) → (⟨S16384x1, .f32⟩ : BufTy).Contents (Elt F) → (⟨S16384x1, .f32⟩ : BufTy).Contents (Elt F)),
    binary main_v51 main_v53 main_v54 (Host.divf : (⟨S16384x1, .f32⟩ : BufTy).Contents (Elt F) → (⟨S16384x1, .f32⟩ : BufTy).Contents (Elt F) → (⟨S16384x1, .f32⟩ : BufTy).Contents (Elt F)),
    unary main_v54 main_v55 (broadcastInDim S16384x64 ![0, 1] bcast_S16384x1_S16384x64_0_1 : (⟨S16384x1, .f32⟩ : BufTy).Contents (Elt F) → (⟨S16384x64, .f32⟩ : BufTy).Contents (Elt F)),
    binary main_v55 main_v45 main_v56 (mulf : (⟨S16384x64, .f32⟩ : BufTy).Contents (Elt F) → (⟨S16384x64, .f32⟩ : BufTy).Contents (Elt F) → (⟨S16384x64, .f32⟩ : BufTy).Contents (Elt F)) ]

/-- Round 2: the agreement and the new logits (%57 … %62). -/
abbrev C1 : List (HloOp τ sig (Elt F)) :=
  [ unary main_v56 main_v57 (broadcastInDim S16384x1x64 ![0, 2] bcast_S16384x64_S16384x1x64_0_2 : (⟨S16384x64, .f32⟩ : BufTy).Contents (Elt F) → (⟨S16384x1x64, .f32⟩ : BufTy).Contents (Elt F)),
    unary main_v57 main_v58 (broadcastInDim S16384x64x64 ![0, 1, 2] bcast_S16384x1x64_S16384x64x64_0_1_2 : (⟨S16384x1x64, .f32⟩ : BufTy).Contents (Elt F) → (⟨S16384x64x64, .f32⟩ : BufTy).Contents (Elt F)),
    binary main_arg0 main_v58 main_v59 (mulf : (⟨S16384x64x64, .f32⟩ : BufTy).Contents (Elt F) → (⟨S16384x64x64, .f32⟩ : BufTy).Contents (Elt F) → (⟨S16384x64x64, .f32⟩ : BufTy).Contents (Elt F)),
    nullary main_cst_13 (constant S_ .f32 0x00000000#32),
    binary main_v59 main_cst_13 main_v60 ((fun x v => Host.reduceAdd x v reducesTo_S16384x64x64_S16384x64_d2 h_S_) : (⟨S16384x64x64, .f32⟩ : BufTy).Contents (Elt F) → (⟨S_, .f32⟩ : BufTy).Contents (Elt F) → (⟨S16384x64, .f32⟩ : BufTy).Contents (Elt F)),
    unary main_v60 main_v61 (broadcastInDim S16384x64x1 ![0, 1] bcast_S16384x64_S16384x64x1_0_1 : (⟨S16384x64, .f32⟩ : BufTy).Contents (Elt F) → (⟨S16384x64x1, .f32⟩ : BufTy).Contents (Elt F)),
    binary main_v31 main_v61 main_v62 (addf : (⟨S16384x64x1, .f32⟩ : BufTy).Contents (Elt F) → (⟨S16384x64x1, .f32⟩ : BufTy).Contents (Elt F) → (⟨S16384x64x1, .f32⟩ : BufTy).Contents (Elt F)) ]

/-- Round 3: the weighted mean (%cst_14 … %76). -/
abbrev A2 : List (HloOp τ sig (Elt F)) :=
  [ nullary main_cst_14 (constant S_ .f32 0xFF800000#32),
    binary main_v62 main_cst_14 main_v63 ((fun x v => Host.reduce FloatOps.maximumf x v reducesTo_S16384x64x1_S16384x1_d1 h_S_) : (⟨S16384x64x1, .f32⟩ : BufTy).Contents (Elt F) → (⟨S_, .f32⟩ : BufTy).Contents (Elt F) → (⟨S16384x1, .f32⟩ : BufTy).Contents (Elt F)),
    nullary main_cst_15 (constant S_ .f32 0xFF800000#32),
    unary main_cst_15 main_v64 (broadcastInDim S16384x1 ![] bcast_S_S16384x1 : (⟨S_, .f32⟩ : BufTy).Contents (Elt F) → (⟨S16384x1, .f32⟩ : BufTy).Contents (Elt F)),
    binary main_v64 main_v63 main_v65 (maximumf : (⟨S16384x1, .f32⟩ : BufTy).Contents (Elt F) → (⟨S16384x1, .f32⟩ : BufTy).Contents (Elt F) → (⟨S16384x1, .f32⟩ : BufTy).Contents (Elt F)),
    unary main_v65 main_v66 (broadcastInDim S16384x1x1 ![0, 2] bcast_S16384x1_S16384x1x1_0_2 : (⟨S16384x1, .f32⟩ : BufTy).Contents (Elt F) → (⟨S16384x1x1, .f32⟩ : BufTy).Contents (Elt F)),
    unary main_v66 main_v67 (broadcastInDim S16384x64x1 ![0, 1, 2] bcast_S16384x1x1_S16384x64x1_0_1_2 : (⟨S16384x1x1, .f32⟩ : BufTy).Contents (Elt F) → (⟨S16384x64x1, .f32⟩ : BufTy).Contents (Elt F)),
    binary main_v62 main_v67 main_v68 (subf : (⟨S16384x64x1, .f32⟩ : BufTy).Contents (Elt F) → (⟨S16384x64x1, .f32⟩ : BufTy).Contents (Elt F) → (⟨S16384x64x1, .f32⟩ : BufTy).Contents (Elt F)),
    unary main_v68 main_v69 (Host.exp : (⟨S16384x64x1, .f32⟩ : BufTy).Contents (Elt F) → (⟨S16384x64x1, .f32⟩ : BufTy).Contents (Elt F)),
    nullary main_cst_16 (constant S_ .f32 0x00000000#32),
    binary main_v69 main_cst_16 main_v70 ((fun x v => Host.reduceAdd x v reducesTo_S16384x64x1_S16384x1_d1 h_S_) : (⟨S16384x64x1, .f32⟩ : BufTy).Contents (Elt F) → (⟨S_, .f32⟩ : BufTy).Contents (Elt F) → (⟨S16384x1, .f32⟩ : BufTy).Contents (Elt F)),
    unary main_v70 main_v71 (broadcastInDim S16384x1x1 ![0, 2] bcast_S16384x1_S16384x1x1_0_2 : (⟨S16384x1, .f32⟩ : BufTy).Contents (Elt F) → (⟨S16384x1x1, .f32⟩ : BufTy).Contents (Elt F)),
    unary main_v71 main_v72 (broadcastInDim S16384x64x1 ![0, 1, 2] bcast_S16384x1x1_S16384x64x1_0_1_2 : (⟨S16384x1x1, .f32⟩ : BufTy).Contents (Elt F) → (⟨S16384x64x1, .f32⟩ : BufTy).Contents (Elt F)),
    binary main_v69 main_v72 main_v73 (Host.divf : (⟨S16384x64x1, .f32⟩ : BufTy).Contents (Elt F) → (⟨S16384x64x1, .f32⟩ : BufTy).Contents (Elt F) → (⟨S16384x64x1, .f32⟩ : BufTy).Contents (Elt F)),
    unary main_v73 main_v74 (broadcastInDim S16384x64x64 ![0, 1, 2] bcast_S16384x64x1_S16384x64x64_0_1_2 : (⟨S16384x64x1, .f32⟩ : BufTy).Contents (Elt F) → (⟨S16384x64x64, .f32⟩ : BufTy).Contents (Elt F)),
    binary main_v74 main_arg0 main_v75 (mulf : (⟨S16384x64x64, .f32⟩ : BufTy).Contents (Elt F) → (⟨S16384x64x64, .f32⟩ : BufTy).Contents (Elt F) → (⟨S16384x64x64, .f32⟩ : BufTy).Contents (Elt F)),
    nullary main_cst_17 (constant S_ .f32 0x00000000#32),
    binary main_v75 main_cst_17 main_v76 ((fun x v => Host.reduceAdd x v reducesTo_S16384x64x64_S16384x64_d1 h_S_) : (⟨S16384x64x64, .f32⟩ : BufTy).Contents (Elt F) → (⟨S_, .f32⟩ : BufTy).Contents (Elt F) → (⟨S16384x64, .f32⟩ : BufTy).Contents (Elt F)) ]

/-- Round 3: the norm and the squashing (… %87). -/
abbrev B2 : List (HloOp τ sig (Elt F)) :=
  [ TRef.binary (TRef.of (T := ⟨S16384x64, .f32⟩) main_v76) (TRef.of (T := ⟨S16384x64, .f32⟩) main_v76) (TRef.of (T := ⟨S16384x64, .f32⟩) main_call2_v0) mulf,
    TRef.nullary (TRef.of (T := ⟨S_, .f32⟩) main_call2_cst) (constant S_ .f32 0x00000000#32),
    TRef.binary (TRef.of (T := ⟨S16384x64, .f32⟩) main_call2_v0) (TRef.of (T := ⟨S_, .f32⟩) main_call2_cst) (TRef.of (T := ⟨S16384, .f32⟩) main_call2_v1) (fun x v => Host.reduceAdd x v reducesTo_S16384x64_S16384_d1 h_S_),
    TRef.unary (TRef.of (T := ⟨S16384, .f32⟩) main_call2_v1) (TRef.of (T := ⟨S16384x1, .f32⟩) main_call2_v2) (broadcastInDim S16384x1 ![0] bcast_S16384_S16384x1_0),
    TRef.unary (TRef.of (T := ⟨S16384x1, .f32⟩) main_call2_v2) (TRef.of (T := ⟨S16384x1, .f32⟩) main_v77) Host.sqrt,
    binary main_v77 main_v77 main_v78 (mulf : (⟨S16384x1, .f32⟩ : BufTy).Contents (Elt F) → (⟨S16384x1, .f32⟩ : BufTy).Contents (Elt F) → (⟨S16384x1, .f32⟩ : BufTy).Contents (Elt F)),
    binary main_v77 main_v77 main_v79 (mulf : (⟨S16384x1, .f32⟩ : BufTy).Contents (Elt F) → (⟨S16384x1, .f32⟩ : BufTy).Contents (Elt F) → (⟨S16384x1, .f32⟩ : BufTy).Contents (Elt F)),
    nullary main_cst_18 (constant S_ .f32 0x3F800000#32),
    unary main_cst_18 main_v80 (broadcastInDim S16384x1 ![] bcast_S_S16384x1 : (⟨S_, .f32⟩ : BufTy).Contents (Elt F) → (⟨S16384x1, .f32⟩ : BufTy).Contents (Elt F)),
    binary main_v80 main_v79 main_v81 (addf : (⟨S16384x1, .f32⟩ : BufTy).Contents (Elt F) → (⟨S16384x1, .f32⟩ : BufTy).Contents (Elt F) → (⟨S16384x1, .f32⟩ : BufTy).Contents (Elt F)),
    binary main_v78 main_v81 main_v82 (Host.divf : (⟨S16384x1, .f32⟩ : BufTy).Contents (Elt F) → (⟨S16384x1, .f32⟩ : BufTy).Contents (Elt F) → (⟨S16384x1, .f32⟩ : BufTy).Contents (Elt F)),
    nullary main_cst_19 (constant S_ .f32 0x322BCC77#32),
    unary main_cst_19 main_v83 (broadcastInDim S16384x1 ![] bcast_S_S16384x1 : (⟨S_, .f32⟩ : BufTy).Contents (Elt F) → (⟨S16384x1, .f32⟩ : BufTy).Contents (Elt F)),
    binary main_v77 main_v83 main_v84 (addf : (⟨S16384x1, .f32⟩ : BufTy).Contents (Elt F) → (⟨S16384x1, .f32⟩ : BufTy).Contents (Elt F) → (⟨S16384x1, .f32⟩ : BufTy).Contents (Elt F)),
    binary main_v82 main_v84 main_v85 (Host.divf : (⟨S16384x1, .f32⟩ : BufTy).Contents (Elt F) → (⟨S16384x1, .f32⟩ : BufTy).Contents (Elt F) → (⟨S16384x1, .f32⟩ : BufTy).Contents (Elt F)),
    unary main_v85 main_v86 (broadcastInDim S16384x64 ![0, 1] bcast_S16384x1_S16384x64_0_1 : (⟨S16384x1, .f32⟩ : BufTy).Contents (Elt F) → (⟨S16384x64, .f32⟩ : BufTy).Contents (Elt F)),
    binary main_v86 main_v76 main_v87 (mulf : (⟨S16384x64, .f32⟩ : BufTy).Contents (Elt F) → (⟨S16384x64, .f32⟩ : BufTy).Contents (Elt F) → (⟨S16384x64, .f32⟩ : BufTy).Contents (Elt F)) ]

/-- @main's 121 operations, in order. -/
abbrev ops : List (HloOp τ sig (Elt F)) := A0 ++ B0 ++ C0 ++ A1 ++ B1 ++ C1 ++ A2 ++ B2

set_option maxRecDepth 8192 in
set_option maxHeartbeats 4000000 in
/-- @main is that straight line: its two windows and the norm function's body unfold to it. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub ..⟩

end Cert.ReferenceIdeal.RefValue

end
-- ==== Proof.RefStages.lean ====
/-
  What each of the eight pieces of the reference's straight line computes, as a function of ANY contents of the
  buffers before it — the stage's vector-level function of the buffers it reads, every buffer a later piece reads
  left as it was — and the eight composed: the result buffer holds `rOut` of the argument, the argument is kept.
-/
import proofs.«127186_j77833397338704_2_alg».proof.Proof.RefOps

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

/-- Two lines run one after the other: the second starts from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Round 1 -/

set_option maxRecDepth 8192 in
theorem A0_v14 (W : Valuation τ sig (Elt F)) :
    after A0 W (main_v14 : DevRef τ sig) = rMix (W (main_arg0 : DevRef τ sig)) rZero := by
  after_results_simp
  rfl

set_option maxRecDepth 8192 in
theorem A0_v0 (W : Valuation τ sig (Elt F)) :
    after A0 W (main_v0 : DevRef τ sig) = rZero := by
  after_results_simp
  rfl

set_option maxRecDepth 8192 in
theorem A0_arg0 (W : Valuation τ sig (Elt F)) :
    after A0 W (main_arg0 : DevRef τ sig) = W (main_arg0 : DevRef τ sig) := by
  after_results_simp

set_option maxRecDepth 8192 in
theorem B0_v25 (W : Valuation τ sig (Elt F)) :
    after B0 W (main_v25 : DevRef τ sig) = rSq (W (main_v14 : DevRef τ sig)) := by
  after_results_simp
  rfl

set_option maxRecDepth 8192 in
theorem B0_arg0 (W : Valuation τ sig (Elt F)) :
    after B0 W (main_arg0 : DevRef τ sig) = W (main_arg0 : DevRef τ sig) := by
  after_results_simp

set_option maxRecDepth 8192 in
theorem B0_v0 (W : Valuation τ sig (Elt F)) :
    after B0 W (main_v0 : DevRef τ sig) = W (main_v0 : DevRef τ sig) := by
  after_results_simp

set_option maxRecDepth 8192 in
theorem C0_v31 (W : Valuation τ sig (Elt F)) :
    after C0 W (main_v31 : DevRef τ sig) = rAgree (W (main_arg0 : DevRef τ sig)) (W (main_v25 : DevRef τ sig)) (W (main_v0 : DevRef τ sig)) := by
  after_results_simp
  rfl

set_option maxRecDepth 8192 in
theorem C0_arg0 (W : Valuation τ sig (Elt F)) :
    after C0 W (main_arg0 : DevRef τ sig) = W (main_arg0 : DevRef τ sig) := by
  after_results_simp

/-! ## Round 2 -/

set_option maxRecDepth 8192 in
theorem A1_v45 (W : Valuation τ sig (Elt F)) :
    after A1 W (main_v45 : DevRef τ sig) = rMix (W (main_arg0 : DevRef τ sig)) (W (main_v31 : DevRef τ sig)) := by
  after_results_simp
  rfl

set_option maxRecDepth 8192 in
theorem A1_arg0 (W : Valuation τ sig (Elt F)) :
    after A1 W (main_arg0 : DevRef τ sig) = W (main_arg0 : DevRef τ sig) := by
  after_results_simp

set_option maxRecDepth 8192 in
theorem A1_v31 (W : Valuation τ sig (Elt F)) :
    after A1 W (main_v31 : DevRef τ sig) = W (main_v31 : DevRef τ sig) := by
  after_results_simp

set_option maxRecDepth 8192 in
theorem B1_v56 (W : Valuation τ sig (Elt F)) :
    after B1 W (main_v56 : DevRef τ sig) = rSq (W (main_v45 : DevRef τ sig)) := by
  after_results_simp
  rfl

set_option maxRecDepth 8192 in
theorem B1_arg0 (W : Valuation τ sig (Elt F)) :
    after B1 W (main_arg0 : DevRef τ sig) = W (main_arg0 : DevRef τ sig) := by
  after_results_simp

set_option maxRecDepth 8192 in
theorem B1_v31 (W : Valuation τ sig (Elt F)) :
    after B1 W (main_v31 : DevRef τ sig) = W (main_v31 : DevRef τ sig) := by
  after_results_simp

set_option maxRecDepth 8192 in
theorem C1_v62 (W : Valuation τ sig (Elt F)) :
    after C1 W (main_v62 : DevRef τ sig) = rAgree (W (main_arg0 : DevRef τ sig)) (W (main_v56 : DevRef τ sig)) (W (main_v31 : DevRef τ sig)) := by
  after_results_simp
  rfl

set_option maxRecDepth 8192 in
theorem C1_arg0 (W : Valuation τ sig (Elt F)) :
    after C1 W (main_arg0 : DevRef τ sig) = W (main_arg0 : DevRef τ sig) := by
  after_results_simp

/-! ## Round 3 -/

set_option maxRecDepth 8192 in
theorem A2_v76 (W : Valuation τ sig (Elt F)) :
    after A2 W (main_v76 : DevRef τ sig) = rMix (W (main_arg0 : DevRef τ sig)) (W (main_v62 : DevRef τ sig)) := by
  after_results_simp
  rfl

set_option maxRecDepth 8192 in
theorem A2_arg0 (W : Valuation τ sig (Elt F)) :
    after A2 W (main_arg0 : DevRef τ sig) = W (main_arg0 : DevRef τ sig) := by
  after_results_simp

set_option maxRecDepth 8192 in
theorem B2_v87 (W : Valuation τ sig (Elt F)) :
    after B2 W (main_v87 : DevRef τ sig) = rSq (W (main_v76 : DevRef τ sig)) := by
  after_results_simp
  rfl

set_option maxRecDepth 8192 in
theorem B2_arg0 (W : Valuation τ sig (Elt F)) :
    after B2 W (main_arg0 : DevRef τ sig) = W (main_arg0 : DevRef τ sig) := by
  after_results_simp

/-! ## The eight pieces composed -/

/-- The whole line leaves, in the result buffer, three rounds of routing of the argument. -/
theorem ops_v87 (V : Valuation τ sig (Elt F)) :
    after ops V (main_v87 : DevRef τ sig) = rOut (V (main_arg0 : DevRef τ sig)) := by
  simp only [ops, after_append]
  rw [B2_v87, A2_v76, C1_v62, C1_arg0, B1_v56, B1_arg0, B1_v31, A1_v45, A1_arg0, A1_v31, C0_v31, C0_arg0,
    B0_v25, B0_arg0, B0_v0, A0_v14, A0_v0, A0_arg0]
  rfl

/-- The whole line leaves the argument as it was. -/
theorem ops_arg0 (V : Valuation τ sig (Elt F)) :
    after ops V (main_arg0 : DevRef τ sig) = V (main_arg0 : DevRef τ sig) := by
  simp only [ops, after_append]
  rw [B2_arg0, A2_arg0, C1_arg0, B1_arg0, A1_arg0, C0_arg0, B0_arg0, A0_arg0]

/-- No operation of the line leaves its result undetermined. -/
theorem ops_fresh : ∀ op ∈ (ops : List (HloOp τ sig (Elt F))), op.fresh = ∅ :=
  List.forall_iff_forall_mem.mp (show (ops : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- On every device, for any float values, from any memory with zero counters: every weakly fair execution of @main
    terminates with the result buffer at three rounds of routing of the argument's launch contents, the argument
    unchanged. -/
theorem run_rOut (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v87) = rOut (m ((c.tc : Thread nD τ).loc main_arg0))
      ∧ r.2.mem ((c.tc : Thread nD τ).loc main_arg0) = m ((c.tc : Thread nD τ).loc main_arg0) :=
  (θ_run defs _ _).mono (fun _ h c => ⟨(h c main_v87).trans (ops_v87 _), (h c main_arg0).trans (ops_arg0 _)⟩)
    (run_seq scopedRefs_eq scopedSems_eq defs main (fun _ => ops) main_eq (fun _ => ops_sub) m ρ (fun _ => ops_fresh))

end Cert.ReferenceIdeal.RefValue

end
-- ==== Proof.LibHostLayout.lean ====
/-
  Broadcasts along named axes and one-axis host reductions of arrays of rank at most three, each read at an entry;
  generic in the extents, so that one statement serves every array size.

  Broadcasts (the operand keeps its axes in order; a unit axis of the operand is read at 0):

    * a scalar broadcast to any shape reads the scalar;
    * a vector [a] as a column [a, 1] reads, at (p, 0), the vector's entry p;
    * a column [a, 1] spread across [a, b] reads, at (p, q), the column's entry at row p;
    * an [a, c] array given a unit middle axis, [a, 1, c], reads at (p, 0, r) the entry (p, r);
    * an [a, b] array given a unit last axis, [a, b, 1], reads at (p, q, 0) the entry (p, q);
    * an [a, 1, c] array spread along the middle axis to [a, b, c] reads, at (p, q, r), the entry (p, 0, r);
    * an [a, b, 1] array spread along the last axis to [a, b, c] reads, at (p, q, r), the entry (p, q, 0).

  Reductions along one axis, at the extended reals (a host sum is the initial value plus the exact sum; a host
  reduction by a commutative and associative operation is the fold from the initial value):

    * the sum of an [a, b] array along its second axis reads, at p, the sum over the b entries of row p;
    * the sum of an [a, b, c] array along its middle axis reads, at (p, r), the sum over q of the entries (p, q, r);
    * the sum of an [a, b, c] array along its last axis reads, at (p, q), the sum over r of the entries (p, q, r);
    * the fold of an [a, b, c] array along its middle axis reads, at (p, r), the fold over q of the entries (p, q, r).
-/
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Idealize.ShloMosaic.HostLayout

open Idealize.ShloMosaic Idealize.ShloMosaic.ValueIdx

variable {α : Type}

/-! ## Broadcasts along named axes -/

/-- A scalar broadcast to any shape. -/
theorem bcast_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply _ h x j ix0 (fun ax => ax.elim0)

/-- A vector as a column. -/
theorem bcast_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column spread across the columns. -/
theorem bcast_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A two-axis array given a unit middle axis. -/
theorem bcast_ac_a1c_apply {a c : ℕ} (h : (⟨2, ![a, c]⟩ : Shape).BroadcastsInDim ⟨3, ![a, 1, c]⟩ (![0, 2] : Fin 2 → Fin 3))
    (x : (⟨2, ![a, c]⟩ : Shape).Idx → α) (p : Fin a) (u : Fin 1) (r : Fin c) :
    broadcastInDim ⟨3, ![a, 1, c]⟩ ![0, 2] h x (ix3 p u r) = x (ix2 p r) := by
  refine broadcastInDim_apply _ h x (ix3 p u r) (ix2 p r) fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- A two-axis array given a unit last axis. -/
theorem bcast_ab_ab1_apply {a b : ℕ} (h : (⟨2, ![a, b]⟩ : Shape).BroadcastsInDim ⟨3, ![a, b, 1]⟩ (![0, 1] : Fin 2 → Fin 3))
    (x : (⟨2, ![a, b]⟩ : Shape).Idx → α) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An array with a unit middle axis spread along it. -/
theorem bcast_a1c_abc_apply {a b c : ℕ}
    (h : (⟨3, ![a, 1, c]⟩ : Shape).BroadcastsInDim ⟨3, ![a, b, c]⟩ (![0, 1, 2] : Fin 3 → Fin 3))
    (x : (⟨3, ![a, 1, c]⟩ : Shape).Idx → α) (p : Fin a) (q : Fin b) (r : Fin c) :
    broadcastInDim ⟨3, ![a, b, c]⟩ ![0, 1, 2] h x (ix3 p q r) = x (ix3 p (0 : Fin 1) r) := by
  refine broadcastInDim_apply _ h x (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An array with a unit last axis spread along it. -/
theorem bcast_ab1_abc_apply {a b c : ℕ}
    (h : (⟨3, ![a, b, 1]⟩ : Shape).BroadcastsInDim ⟨3, ![a, b, c]⟩ (![0, 1, 2] : Fin 3 → Fin 3))
    (x : (⟨3, ![a, b, 1]⟩ : Shape).Idx → α) (p : Fin a) (q : Fin b) (r : Fin c) :
    broadcastInDim ⟨3, ![a, b, c]⟩ ![0, 1, 2] h x (ix3 p q r) = x (ix3 p q (0 : Fin 1)) := by
  refine broadcastInDim_apply _ h x (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## One-axis host reductions at the extended reals -/

/-- The host sum of a two-axis array along its second axis. -/
theorem hostSum_ab_a_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h]
  refine congrArg (init + ·) (Finset.sum_congr rfl fun k _ => congrArg x ?_)
  funext c
  apply Fin.ext
  match c with
  | ⟨0, _⟩ => rfl
  | ⟨1, _⟩ => rfl

/-- The host sum of a three-axis array along its middle axis. -/
theorem hostSum_abc_ac_apply {a b c : ℕ} (h' : (⟨3, ![a, b, c]⟩ : Shape).ReducesTo [(1 : Fin 3)] ⟨2, ![a, c]⟩)
    (h : (⟨3, ![a, b, c]⟩ : Shape).Reduces [(1 : Fin 3)] ⟨2, ![a, c]⟩)
    (x : (⟨3, ![a, b, c]⟩ : Shape).Idx → EReal) (init : EReal) (p : Fin a) (r : Fin c) :
    Ideal.hostReduceAdd h' x init (ix2 p r) = init + ∑ k : Fin b, x (ix3 p k r) := by
  rw [Ideal.hostReduceAdd_single h' h]
  refine congrArg (init + ·) (Finset.sum_congr rfl fun k _ => congrArg x ?_)
  funext d
  apply Fin.ext
  match d with
  | ⟨0, _⟩ => rfl
  | ⟨1, _⟩ => rfl
  | ⟨2, _⟩ => rfl

/-- The host sum of a three-axis array along its last axis. -/
theorem hostSum_abc_ab_apply {a b c : ℕ} (h' : (⟨3, ![a, b, c]⟩ : Shape).ReducesTo [(2 : Fin 3)] ⟨2, ![a, b]⟩)
    (h : (⟨3, ![a, b, c]⟩ : Shape).Reduces [(2 : Fin 3)] ⟨2, ![a, b]⟩)
    (x : (⟨3, ![a, b, c]⟩ : Shape).Idx → EReal) (init : EReal) (p : Fin a) (q : Fin b) :
    Ideal.hostReduceAdd h' x init (ix2 p q) = init + ∑ k : Fin c, x (ix3 p q k) := by
  rw [Ideal.hostReduceAdd_single h' h]
  refine congrArg (init + ·) (Finset.sum_congr rfl fun k _ => congrArg x ?_)
  funext d
  apply Fin.ext
  match d with
  | ⟨0, _⟩ => rfl
  | ⟨1, _⟩ => rfl
  | ⟨2, _⟩ => rfl

/-- The host reduction of a three-axis array along its middle axis by a commutative and associative operation. -/
theorem hostFold_abc_ac_apply {a b c : ℕ} {u : Shape} (f : α → α → α) [Std.Commutative f] [Std.Associative f]
    (h' : (⟨3, ![a, b, c]⟩ : Shape).ReducesTo [(1 : Fin 3)] ⟨2, ![a, c]⟩)
    (h : (⟨3, ![a, b, c]⟩ : Shape).Reduces [(1 : Fin 3)] ⟨2, ![a, c]⟩) (hu : 0 < u.numel)
    (x : (⟨3, ![a, b, c]⟩ : Shape).Idx → α) (init : u.Idx → α) (p : Fin a) (r : Fin c) :
    Host.reduce f x init h' hu (ix2 p r)
      = (Finset.univ : Finset (Fin b)).fold f (init (Shape.Idx.first hu)) (fun k => x (ix3 p k r)) := by
  rw [Host.reduce_eq_fold_single f x init h' h hu]
  refine congrArg (Finset.fold f (init (Shape.Idx.first hu)) · Finset.univ) (funext fun k => congrArg x ?_)
  funext d
  apply Fin.ext
  match d with
  | ⟨0, _⟩ => rfl
  | ⟨1, _⟩ => rfl
  | ⟨2, _⟩ => rfl

end Idealize.ShloMosaic.HostLayout

end
-- ==== Proof.RefReads.lean ====
/-
  The reference program's stages read at an entry, and the whole reference as `G`.

  Every stage of the reference acts on whole [16384, …] arrays but row by row: at row r it is the row function of
  Spec.lean applied to row r of its operands.  Three things differ in spelling from the row functions and are removed
  here: every host sum starts from the literal zero (0 + Σ = Σ); the squashing uses the norm squared again where the
  row function has the sum of squares itself (`sqrt_mul_self_sqnorm`); and the first round computes the softmax of
  all-zero logits where the row function has the plain mean (`mix_soft_zero`).
-/
import proofs.«127186_j77833397338704_2_alg».proof.Proof.RefFns
import proofs.«127186_j77833397338704_2_alg».proof.Proof.LibHostLayout
import proofs.«127186_j77833397338704_2_alg».proof.Proof.Spec

noncomputable section

open scoped BigOperators

namespace Cert.ReferenceIdeal.RefValue

open Cert.ReferenceIdeal Idealize.ShloMosaic Idealize.ShloMosaic.ValueIdx Idealize.ShloMosaic.HostLayout Cert.Routing
open Facts₀ Facts

/-- The host's square root and quotient act entry by entry. -/
theorem hostSqrt_apply {s : Shape} {φ : FTy} (x : FVec Ideal s φ) (i : s.Idx) : Host.sqrt x i = Ideal.sqrt (x i) := rfl
theorem hostDivf_apply {s : Shape} {φ : FTy} (x y : FVec Ideal s φ) (i : s.Idx) : Host.divf x y i = Ideal.div (x i) (y i) := rfl

/-- The initial logits are zero. -/
theorem rZero_apply (r : Fin 16384) (n : Fin 64) : rZero (F := Ideal) (ix3 r n (0 : Fin 1)) = 0 := by
  unfold rZero
  rw [bcast_scalar_apply]
  exact Ideal.ofBits_zero_f32

/-- A per-row scalar spread over the capsules reads the row's scalar. -/
theorem rSpread_apply (t : FVec Ideal S16384x1 .f32) (r : Fin 16384) (n : Fin 64) :
    rSpread t (ix3 r n (0 : Fin 1)) = t (ix2 r (0 : Fin 1)) := by
  unfold rSpread
  rw [bcast_a1c_abc_apply, bcast_ac_a1c_apply]

/-- The softmax's shift at row r is the largest logit of the row, from −∞. -/
theorem rTop_apply (b : FVec Ideal S16384x64x1 .f32) (r : Fin 16384) :
    rTop b (ix2 r (0 : Fin 1)) = top fun n => b (ix3 r n (0 : Fin 1)) := by
  unfold rTop top
  refine (maximumf_apply _ _ _).trans (congrArg₂ max ?_ ?_)
  · exact bcast_scalar_apply _ _ _
  · exact hostFold_abc_ac_apply FloatOps.maximumf reducesTo_S16384x64x1_S16384x1_d1 (by decide) h_S_ b
      (cNinf (F := Ideal)) r (0 : Fin 1)

theorem rExp_apply (b : FVec Ideal S16384x64x1 .f32) (r : Fin 16384) (n : Fin 64) :
    rExp b (ix3 r n (0 : Fin 1)) = Ideal.exp (b (ix3 r n (0 : Fin 1)) - top fun k => b (ix3 r k (0 : Fin 1))) := by
  show Ideal.exp (b (ix3 r n (0 : Fin 1)) - rSpread (rTop b) (ix3 r n (0 : Fin 1))) = _
  rw [rSpread_apply, rTop_apply]

/-- The coupling coefficients at row r are the softmax of the row's logits. -/
theorem rSoft_apply (b : FVec Ideal S16384x64x1 .f32) (r : Fin 16384) (n : Fin 64) :
    rSoft b (ix3 r n (0 : Fin 1)) = soft (fun k => b (ix3 r k (0 : Fin 1))) n := by
  unfold rSoft soft
  refine (divf_apply (rExp b) _ (ix3 r n (0 : Fin 1))).trans (congrArg₂ Ideal.div (rExp_apply b r n) ?_)
  refine (rSpread_apply _ r n).trans ?_
  refine (hostSum_abc_ac_apply reducesTo_S16384x64x1_S16384x1_d1 (by decide) (rExp b) _ r (0 : Fin 1)).trans ?_
  refine (congrArg (· + _) Ideal.ofBits_zero_f32).trans ((zero_add _).trans ?_)
  exact Finset.sum_congr rfl fun k _ => rExp_apply b r k

/-- The weighted mean at row r mixes the row's capsules with the softmax of the row's logits. -/
theorem rMix_apply (x : FVec Ideal S16384x64x64 .f32) (b : FVec Ideal S16384x64x1 .f32) (r : Fin 16384) (d : Fin 64) :
    rMix x b (ix2 r d) = mix (fun n k => x (ix3 r n k)) (soft fun k => b (ix3 r k (0 : Fin 1))) d := by
  show Ideal.hostReduceAdd reducesTo_S16384x64x64_S16384x64_d1
      (mulf (broadcastInDim S16384x64x64 ![0, 1, 2] bcast_S16384x64x1_S16384x64x64_0_1_2 (rSoft b)) x)
      (Ideal.ofBits .f32 0x00000000#32) (ix2 r d) = _
  rw [hostSum_abc_ac_apply reducesTo_S16384x64x64_S16384x64_d1 (by decide), Ideal.ofBits_zero_f32, zero_add]
  refine Finset.sum_congr rfl fun k _ => ?_
  show broadcastInDim S16384x64x64 ![0, 1, 2] bcast_S16384x64x1_S16384x64x64_0_1_2 (rSoft b) (ix3 r k d) * x (ix3 r k d) = _
  rw [bcast_ab1_abc_apply, rSoft_apply]

/-- The norm at row r is the root of the row's sum of squares. -/
theorem rNorm_apply (s : FVec Ideal S16384x64 .f32) (r : Fin 16384) :
    rNorm s (ix2 r (0 : Fin 1)) = Ideal.sqrt (sqnorm fun k => s (ix2 r k)) := by
  unfold rNorm sqnorm
  refine (hostSqrt_apply _ _).trans (congrArg Ideal.sqrt ((bcast_a_a1_apply bcast_S16384_S16384x1_0 _ r (0 : Fin 1)).trans ?_))
  refine (hostSum_ab_a_apply reducesTo_S16384x64_S16384_d1 (by decide) (mulf s s) _ r).trans ?_
  exact (congrArg (· + _) Ideal.ofBits_zero_f32).trans (zero_add _)

theorem rScale_apply (nr : FVec Ideal S16384x1 .f32) (r : Fin 16384) :
    rScale nr (ix2 r (0 : Fin 1))
      = Ideal.div (Ideal.div (nr (ix2 r (0 : Fin 1)) * nr (ix2 r (0 : Fin 1))) (one + nr (ix2 r (0 : Fin 1)) * nr (ix2 r (0 : Fin 1))))
          (nr (ix2 r (0 : Fin 1)) + tiny) := by
  show Ideal.div (Ideal.div (nr (ix2 r (0 : Fin 1)) * nr (ix2 r (0 : Fin 1)))
        (broadcastInDim S16384x1 ![] bcast_S_S16384x1 (constant (F := Ideal) S_ .f32 0x3F800000#32) (ix2 r (0 : Fin 1))
          + nr (ix2 r (0 : Fin 1)) * nr (ix2 r (0 : Fin 1))))
      (nr (ix2 r (0 : Fin 1)) + broadcastInDim S16384x1 ![] bcast_S_S16384x1 (constant (F := Ideal) S_ .f32 0x322BCC77#32) (ix2 r (0 : Fin 1))) = _
  rw [bcast_scalar_apply, bcast_scalar_apply]
  rfl

/-- The squashing at row r is the squashing of the row. -/
theorem rSq_apply (s : FVec Ideal S16384x64 .f32) (r : Fin 16384) (d : Fin 64) :
    rSq s (ix2 r d) = squash (fun k => s (ix2 r k)) d := by
  show broadcastInDim S16384x64 ![0, 1] bcast_S16384x1_S16384x64_0_1 (rScale (rNorm s)) (ix2 r d) * s (ix2 r d) = _
  rw [bcast_a1_ab_apply, rScale_apply, rNorm_apply, sqrt_mul_self_sqnorm]
  rfl

/-- The new logits at row r: the old ones plus each capsule's agreement with the row's output vector. -/
theorem rAgree_apply (x : FVec Ideal S16384x64x64 .f32) (v : FVec Ideal S16384x64 .f32) (b : FVec Ideal S16384x64x1 .f32)
    (r : Fin 16384) (n : Fin 64) :
    rAgree x v b (ix3 r n (0 : Fin 1))
      = b (ix3 r n (0 : Fin 1)) + agree (fun n k => x (ix3 r n k)) (fun k => v (ix2 r k)) n := by
  show b (ix3 r n (0 : Fin 1)) + broadcastInDim S16384x64x1 ![0, 1] bcast_S16384x64_S16384x64x1_0_1
      (Host.reduceAdd
        (mulf x (broadcastInDim S16384x64x64 ![0, 1, 2] bcast_S16384x1x64_S16384x64x64_0_1_2
          (broadcastInDim S16384x1x64 ![0, 2] bcast_S16384x64_S16384x1x64_0_2 v)))
        (cZero (F := Ideal)) reducesTo_S16384x64x64_S16384x64_d2 h_S_) (ix3 r n (0 : Fin 1)) = _
  rw [bcast_ab_ab1_apply]
  show _ + Ideal.hostReduceAdd reducesTo_S16384x64x64_S16384x64_d2
      (mulf x (broadcastInDim S16384x64x64 ![0, 1, 2] bcast_S16384x1x64_S16384x64x64_0_1_2
        (broadcastInDim S16384x1x64 ![0, 2] bcast_S16384x64_S16384x1x64_0_2 v)))
      (Ideal.ofBits .f32 0x00000000#32) (ix2 r n) = _
  rw [hostSum_abc_ab_apply reducesTo_S16384x64x64_S16384x64_d2 (by decide), Ideal.ofBits_zero_f32, zero_add]
  refine congrArg (b (ix3 r n (0 : Fin 1)) + ·) (Finset.sum_congr rfl fun k _ => ?_)
  show x (ix3 r n k) * broadcastInDim S16384x64x64 ![0, 1, 2] bcast_S16384x1x64_S16384x64x64_0_1_2
      (broadcastInDim S16384x1x64 ![0, 2] bcast_S16384x64_S16384x1x64_0_2 v) (ix3 r n k) = _
  rw [bcast_a1c_abc_apply, bcast_ac_a1c_apply]

/-- The reference's three rounds, over the whole arrays, compute `G`. -/
theorem rOut_eq_G (x : FVec Ideal S16384x64x64 .f32) : rOut x = G x := by
  funext i
  obtain ⟨r, d, rfl⟩ : ∃ (r : Fin 16384) (d : Fin 64), i = ix2 r d := ⟨i 0, i 1, eq_ix2 i⟩
  rw [G_apply]
  unfold rOut route
  simp only [rSq_apply, rMix_apply, rAgree_apply, rZero_apply, mix_soft_zero, zero_add]

end Cert.ReferenceIdeal.RefValue

end
-- ==== Proof.RefRun.lean ====
/-
  The reference program's run, in mathematical terms: every execution ends with the result buffer holding, row by
  row, three rounds of capsule routing (`Cert.Routing.G`) of the argument, and the argument unchanged.  It is the
  run of the straight line read stage by stage (`run_rOut`), with the stages' composition identified with `G`
  (`rOut_eq_G`).
-/
import proofs.«127186_j77833397338704_2_alg».proof.Proof.RefStages
import proofs.«127186_j77833397338704_2_alg».proof.Proof.RefReads

noncomputable section

namespace Cert.ReferenceIdeal.RefValue

open Cert.ReferenceIdeal Idealize.ShloMosaic Idealize.ShloMosaic.TcCoe Idealize.SL.Sem

/-- On every device, from any memory with zero counters: every weakly fair execution of @main terminates with the
    result at the routing of the argument's launch contents and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87) = Cert.Routing.G (m ((c.tc : Thread nD τ).loc main_arg0))
      ∧ r.2.mem ((c.tc : Thread nD τ).loc main_arg0) = m ((c.tc : Thread nD τ).loc main_arg0) :=
  (θ_run defs _ _).mono (fun _ h c => ⟨(h c).1.trans (rOut_eq_G _), (h c).2⟩) (run_rOut m ρ)

end Cert.ReferenceIdeal.RefValue

end
-- ==== Proof.lean ====
/-
  The certificate: a capsule-routing kernel against its jnp reference, equal over the extended reals.

  Both programs run three rounds of dynamic routing on every batch row independently: softmax of the logits over the
  row's 64 capsules, the softmax-weighted mean of the capsules, the squashing of that mean, and the logits raised by
  each capsule's inner product with the squashed mean (Proof/Spec.lean states one row's computation, `route`, and
  the whole result `G`).  The kernel handles 256 rows per grid point and its result array ends holding `G` of the
  input (Proof/KernelValue.lean, over the stage-by-stage reading of the body in Proof/KernelStages.lean).  The reference
  is a straight line of host operations on the whole arrays; its result is `G` of the input too
  (Proof/RefRun.lean: the operations listed and run stage by stage in Proof/RefOps.lean and Proof/RefStages.lean, each
  stage read at an entry in Proof/RefReads.lean).  The two programs spell three things differently — the first round's
  uniform softmax against a plain mean times 1/64, the squared norm against the sum of squares, a sum started from the
  literal zero — and each is an identity on every extended real, so the precondition is not used.
-/
import proofs.«127186_j77833397338704_2_alg».proof.Defs
import proofs.«127186_j77833397338704_2_alg».proof.Proof.Gen.Kernel
import proofs.«127186_j77833397338704_2_alg».proof.Proof.Gen.Kernel.Frame
import proofs.«127186_j77833397338704_2_alg».proof.Proof.Gen.KernelIdeal
import proofs.«127186_j77833397338704_2_alg».proof.Proof.Gen.KernelIdeal.Frame
import proofs.«127186_j77833397338704_2_alg».proof.Proof.Gen.ReferenceIdeal
import proofs.«127186_j77833397338704_2_alg».proof.Proof.Gen.Pre_finite_inputs
import proofs.«127186_j77833397338704_2_alg».proof.Proof.KernelValue
import proofs.«127186_j77833397338704_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both runs end with the result array at `G` of the (agreeing) input arrays. -/
theorem algebraic : Cert.algebraic_KernelIdeal_ReferenceIdeal := by
  intro m ρ m' ρ' _ hagree
  refine ⟨fun c => Cert.Routing.G (m ((c.tc : Thread Cert.KernelIdeal.nD Cert.KernelIdeal.τ).loc Cert.KernelIdeal.main_arg0)),
    Cert.KernelIdeal.RouteValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
